-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x2048 : Shape := ⟨2, ![50000, 2048]⟩
abbrev S128x50000 : Shape := ⟨2, ![128, 50000]⟩
abbrev S_ : Shape := ⟨0, ![]⟩

class Facts : Prop where
  bcast_S_S50000x2048 : S_.BroadcastsInDim S50000x2048 (![] : Fin 0 → Fin S50000x2048.rank)
  reducesTo_S50000x2048_S_d0_1 : S50000x2048.ReducesTo [0, 1] S_
  h_S_ : 0 < S_.numel
  bcast_S_S128x50000 : S_.BroadcastsInDim S128x50000 (![] : Fin 0 → Fin S128x50000.rank)
  reducesTo_S128x50000_S_d0_1 : S128x50000.ReducesTo [0, 1] S_

variable [Facts]

def fn {F : FTy → Type} [FloatOps F] (main_arg0 : FVec F S50000x2048 .f32) (main_arg1 : FVec F S128x50000 .f32) : IVec S_ 1 :=
  let main_v0 : FVec F S50000x2048 .f32 := Host.absf main_arg0
  let main_cst : FVec F S_ .f32 := constant S_ .f32 0x7F800000#32
  let main_v1 : FVec F S50000x2048 .f32 := broadcastInDim S50000x2048 ![] bcast_S_S50000x2048 main_cst
  let main_v2 : IVec S50000x2048 1 := cmpf .olt main_v0 main_v1
  let main_c : IVec S_ 1 := constantI S_ 1 1#1
  let main_v3 : IVec S_ 1 := (fun x v => Host.reduce IntOp.andi x v reducesTo_S50000x2048_S_d0_1 h_S_) main_v2 main_c
  let main_v4 : FVec F S128x50000 .f32 := Host.absf main_arg1
  let main_cst_0 : FVec F S_ .f32 := constant S_ .f32 0x7F800000#32
  let main_v5 : FVec F S128x50000 .f32 := broadcastInDim S128x50000 ![] bcast_S_S128x50000 main_cst_0
  let main_v6 : IVec S128x50000 1 := cmpf .olt main_v4 main_v5
  let main_c_1 : IVec S_ 1 := constantI S_ 1 1#1
  let main_v7 : IVec S_ 1 := (fun x v => Host.reduce IntOp.andi x v reducesTo_S128x50000_S_d0_1 h_S_) main_v6 main_c_1
  let main_v8 : IVec S_ 1 := andi main_v3 main_v7
  main_v8
-- ==== Kernel.lean ====
abbrev S50000x2048 : Shape := ⟨2, ![50000, 2048]⟩
abbrev S128x50000 : Shape := ⟨2, ![128, 50000]⟩
abbrev S2048x128 : Shape := ⟨2, ![2048, 128]⟩
abbrev S128x2048 : Shape := ⟨2, ![128, 2048]⟩
abbrev S2048x1024 : Shape := ⟨2, ![2048, 1024]⟩
abbrev S1024x128 : Shape := ⟨2, ![1024, 128]⟩

abbrev nBuf : Space → Nat
  | .hbm => 3
  | .vmem => 7
  | .smem => 0
  | _ => 0

abbrev bufTy : (tb : Table) → Fin (tcTables nBuf tb) → BufTy
  | .hbm, ⟨0, _⟩ => ⟨S50000x2048, .f32⟩
  | .hbm, ⟨1, _⟩ => ⟨S128x50000, .f32⟩
  | .hbm, ⟨2, _⟩ => ⟨S2048x128, .f32⟩
  | .local _ .vmem, ⟨0, _⟩ => ⟨S128x2048, .f32⟩
  | .local _ .vmem, ⟨1, _⟩ => ⟨S128x2048, .f32⟩
  | .local _ .vmem, ⟨2, _⟩ => ⟨S2048x1024, .f32⟩
  | .local _ .vmem, ⟨3, _⟩ => ⟨S2048x1024, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | _, _ => ⟨S50000x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg1 : BitVec 32 := BitVec.ofNat 32 (i 1).val
  let c24_i32 : BitVec 32 := 24#32
  let v28 : BitVec 1 := Scalar.cmpi .eq arg1 c24_i32
  let v29 : BitVec 32 := Scalar.extui v28
  let c0_i32_11 : BitVec 32 := 0#32
  let v30 : BitVec 1 := Scalar.cmpi .ne v29 c0_i32_11
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S128x2048_S128x2048_0_0 : ∀ a, (![0, 0] : Fin 2 → Nat) a + S128x2048.size a ≤ S128x2048.size a
  h_S128x2048 : 0 < S128x2048.numel
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  iota_S128x2048_d1_w32 : S128x2048.Iotas .tc 32 [1]
  iota_S2048x1024_d0_w32 : S2048x1024.Iotas .tc 32 [0]
  dot_S2048x1024_S128x2048_S1024x128_0_1_1_0_n_n_wf : DotDims.WF S2048x1024 S128x2048 S1024x128 [0] [1] [1] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S128x2048.size a < S128x50000.size a
  hwx0_0 : ∀ i : grid0.Coords, EltTy.bits .f32 = 32 ∨ (Rect.unit (s := S128x50000) (fun a => cc0_transform_0 i a * S128x2048.size a) (fun a => (Pipeline.Clip.of (cc0_transform_0 i a) (S128x2048.size a) (S128x50000.size a)).extent (S128x2048.size a)) fun a => Pipeline.Clip.inb (Pipeline.Clip.ok_of (hstart0_0 i a))).WholeWords (EltTy.packing .f32)
  hwxs0_0 : ∀ i : grid0.Coords, EltTy.bits .f32 = 32 ∨ (Rect.unit (s := S128x2048) (fun _ => 0) (fun a => (Pipeline.Clip.of (cc0_transform_0 i a) (S128x2048.size a) (S128x50000.size a)).extent (S128x2048.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S2048x1024.size a < S50000x2048.size a
  hwx0_1 : ∀ i : grid0.Coords, EltTy.bits .f32 = 32 ∨ (Rect.unit (s := S50000x2048) (fun a => cc0_transform_1 i a * S2048x1024.size a) (fun a => (Pipeline.Clip.of (cc0_transform_1 i a) (S2048x1024.size a) (S50000x2048.size a)).extent (S2048x1024.size a)) fun a => Pipeline.Clip.inb (Pipeline.Clip.ok_of (hstart0_1 i a))).WholeWords (EltTy.packing .f32)
  hwxs0_1 : ∀ i : grid0.Coords, EltTy.bits .f32 = 32 ∨ (Rect.unit (s := S2048x1024) (fun _ => 0) (fun a => (Pipeline.Clip.of (cc0_transform_1 i a) (S2048x1024.size a) (S50000x2048.size a)).extent (S2048x1024.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S2048x128.size a
  hwx0_2 : ∀ i : grid0.Coords, EltTy.bits .f32 = 32 ∨ (Rect.block (s := S2048x128) S1024x128.size (cc0_transform_2 i) (hinb0_2 i)).WholeWords (EltTy.packing .f32)

variable [Facts₀]

def dot_S2048x1024_S128x2048_S1024x128_0_1_1_0_n_n : DotDims S2048x1024 S128x2048 S1024x128 where
  lhsContracting := [0]
  rhsContracting := [1]
  lhsNonContracting := [1]
  rhsNonContracting := [0]
  lhsBatch := []
  rhsBatch := []
  wf := dot_S2048x1024_S128x2048_S1024x128_0_1_1_0_n_n_wf

abbrev win0_0 : Pipeline.Window sig grid0 :=
  Pipeline.Window.ofSpecClip (Memref.whole main_arg1) S128x2048.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg0) S2048x1024.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v0) S1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S50000x2048 : Shape := ⟨2, ![50000, 2048]⟩
abbrev S128x50000 : Shape := ⟨2, ![128, 50000]⟩
abbrev S128x2048 : Shape := ⟨2, ![128, 2048]⟩
abbrev S2048x128 : Shape := ⟨2, ![2048, 128]⟩

abbrev nBuf : Space → Nat
  | .hbm => 4
  | .vmem => 0
  | .smem => 0
  | _ => 0

abbrev bufTy : (tb : Table) → Fin (tcTables nBuf tb) → BufTy
  | .hbm, ⟨0, _⟩ => ⟨S50000x2048, .f32⟩
  | .hbm, ⟨1, _⟩ => ⟨S128x50000, .f32⟩
  | .hbm, ⟨2, _⟩ => ⟨S128x2048, .f32⟩
  | .hbm, ⟨3, _⟩ => ⟨S2048x128, .f32⟩
  | _, _ => ⟨S50000x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  transposes_S128x2048_S2048x128_1_0 : S128x2048.Transposes [1, 0] S2048x128
  dot_S128x50000_S50000x2048_S128x2048_1_0_0_1_n_n_wf : DotDims.WF S128x50000 S50000x2048 S128x2048 [1] [0] [0] [1] [] []

variable [Facts₀]

def dot_S128x50000_S50000x2048_S128x2048_1_0_0_1_n_n : DotDims S128x50000 S50000x2048 S128x2048 where
  lhsContracting := [1]
  rhsContracting := [0]
  lhsNonContracting := [0]
  rhsNonContracting := [1]
  lhsBatch := []
  rhsBatch := []
  wf := dot_S128x50000_S50000x2048_S128x2048_1_0_0_1_n_n_wf

class Facts : Prop extends Facts₀ where

variable [Facts]
-- ==== Proof.KernelPoint.lean ====
/-
  One grid point of the one-hot product kernel, on any whole staging buffers and at any float
  instance. The body keeps a running block sum in its scratch buffer: at the first step of the
  contracted axis it clears the scratch, at every step it adds the product of the two current
  blocks (their out-of-range tail replaced by zeros) to it, and at the last step it copies the
  scratch into the result's staging buffer. Three cases of the two branch conditions occur on the
  grid; each is stated here as a triple whose postcondition names what the scratch (and, at the
  last step, the result's buffer) holds: the body's own arithmetic `k0_pay2` applied to the two
  input buffers' contents and to what the scratch held (the cleared block `k0_pay1` at a first
  step).
-/
import proofs.«158598_j66949950210384_2_alg».proof.Proof.Gen.Kernel.Frame
import proofs.«158598_j66949950210384_2_alg».proof.Proof.Gen.Kernel.Skeleton
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Point

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The body's first branch condition: the step along the contracted axis is the first one. -/
abbrev isFirst (i : grid0.Coords) : Prop := (Scalar.cmpi .ne (Scalar.extui (Scalar.cmpi .eq (BitVec.ofNat 32 (i 1).val) 0#32)) 0#32) = 1#1
/-- The body's second branch condition: the step along the contracted axis is the last one. -/
abbrev isLast (i : grid0.Coords) : Prop := k0_cond2 i = 1#1

/-- The offsets `![0, 0]` are zero on both axes. -/
theorem zeroOff : (![0, 0] : Fin 2 → Nat) = fun _ => 0 := funext fun a => by fin_cases a <;> rfl

set_option maxHeartbeats 1000000 in
/-- A first step that is not a last one: the scratch, whatever it held, ends at the product of the two
    blocks added to the cleared block; the inputs' buffers and the result's buffer are left as found. -/
theorem firstStep (c : Dev nD) (i : grid0.Coords) (arg2 : Memref sig .tc .vmem S128x2048 .f32) (harg2 : arg2.IsWhole)
    (arg3 : Memref sig .tc .vmem S2048x1024 .f32) (harg3 : arg3.IsWhole) (arg4 : Memref sig .tc .vmem S1024x128 .f32) (harg4 : arg4.IsWhole)
    (arg5 : Memref sig .tc .vmem S1024x128 .f32) (harg5 : arg5.IsWhole) (hc0 : isFirst i) (hc1 : ¬isLast i)
    (x0 : Vec F S128x2048 .f32) (x1 : Vec F S2048x1024 .f32) (xi : Vec F S1024x128 .f32)
    (E : Set ℕ) (K : PUnit → sProp 𝕄) :
    iprop(owns (c : Thread nD τ) arg2 fullShare x0 ∗ owns (c : Thread nD τ) arg3 fullShare x1 ∗ owns (c : Thread nD τ) arg4 fullShare xi
          ∗ (∃ d, owns (c : Thread nD τ) arg5 fullShare d)
          ∗ (iprop(owns (c : Thread nD τ) arg2 fullShare x0 ∗ owns (c : Thread nD τ) arg3 fullShare x1 ∗ owns (c : Thread nD τ) arg4 fullShare xi
              ∗ owns (c : Thread nD τ) arg5 fullShare (k0_pay2 i x0 x1 (k0_pay1 (F := F)))) -∗ K ⟨⟩))
      ⊢ wp frame (wpE (defs₀ (F := F)) Variants.none c none) E (cc0__onehot_matmul_kernel i arg2 harg2 arg3 harg3 arg4 harg4 arg5 harg5) K := by
  simp only [cc0__onehot_matmul_kernel_eq_skeleton]; unfold cc0__onehot_matmul_kernel_skel
  unfold owns
  iintro ⟨⟨%f0, %hf0, H0⟩, ⟨%f1, %hf1, H1⟩, ⟨%f2, %hf2, H2⟩, ⟨%ds, %fs, -, HS⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS
  ipureintro
  sl_unfold_words
  rw [View.read_writes_eq_canon _ _ _ (fun y => ⟨_, List.mem_cons_self, View.mem_set_unit_zero zeroOff Facts₀.inb_S1024x128_S1024x128_0_0 y⟩),
    View.canon_cons_unit_zero zeroOff]
  simp only [View.readAt_eq_ld, harg2.read_unread, harg3.read_unread, View.ld_unit_zero (S := S128x2048) zeroOff,
    View.ld_unit_zero (S := S2048x1024) zeroOff, View.readCov_unit_zero (S := S1024x128) _ zeroOff]

set_option maxHeartbeats 1000000 in
/-- A step that is neither first nor last: the scratch ends at the product of the two blocks added to what
    it held; the inputs' buffers and the result's buffer are left as found. -/
theorem middleStep (c : Dev nD) (i : grid0.Coords) (arg2 : Memref sig .tc .vmem S128x2048 .f32) (harg2 : arg2.IsWhole)
    (arg3 : Memref sig .tc .vmem S2048x1024 .f32) (harg3 : arg3.IsWhole) (arg4 : Memref sig .tc .vmem S1024x128 .f32) (harg4 : arg4.IsWhole)
    (arg5 : Memref sig .tc .vmem S1024x128 .f32) (harg5 : arg5.IsWhole) (hc0 : ¬isFirst i) (hc1 : ¬isLast i)
    (x0 : Vec F S128x2048 .f32) (x1 : Vec F S2048x1024 .f32) (xi : Vec F S1024x128 .f32) (xs : Vec F S1024x128 .f32)
    (E : Set ℕ) (K : PUnit → sProp 𝕄) :
    iprop(owns (c : Thread nD τ) arg2 fullShare x0 ∗ owns (c : Thread nD τ) arg3 fullShare x1 ∗ owns (c : Thread nD τ) arg4 fullShare xi
          ∗ owns (c : Thread nD τ) arg5 fullShare xs
          ∗ (iprop(owns (c : Thread nD τ) arg2 fullShare x0 ∗ owns (c : Thread nD τ) arg3 fullShare x1 ∗ owns (c : Thread nD τ) arg4 fullShare xi
              ∗ owns (c : Thread nD τ) arg5 fullShare (k0_pay2 i x0 x1 xs)) -∗ K ⟨⟩))
      ⊢ wp frame (wpE (defs₀ (F := F)) Variants.none c none) E (cc0__onehot_matmul_kernel i arg2 harg2 arg3 harg3 arg4 harg4 arg5 harg5) K := by
  simp only [cc0__onehot_matmul_kernel_eq_skeleton]; unfold cc0__onehot_matmul_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS
  ipureintro
  sl_unfold_words
  rw [View.read_writes_eq_canon _ _ _ (fun y => ⟨_, List.mem_singleton_self _, View.mem_set_unit_zero zeroOff Facts₀.inb_S1024x128_S1024x128_0_0 y⟩),
    View.canon_unit_zero zeroOff]
  simp only [View.readAt_eq_ld, harg2.read_unread, harg3.read_unread, harg5.read_unread, View.ld_unit_zero (S := S128x2048) zeroOff,
    View.ld_unit_zero (S := S2048x1024) zeroOff, View.ld_unit_zero (S := S1024x128) zeroOff]

set_option maxHeartbeats 1000000 in
/-- A last step that is not a first one: the scratch ends at the product of the two blocks added to what it
    held, and the result's buffer, whatever it held, ends at the same block. -/
theorem lastStep (c : Dev nD) (i : grid0.Coords) (arg2 : Memref sig .tc .vmem S128x2048 .f32) (harg2 : arg2.IsWhole)
    (arg3 : Memref sig .tc .vmem S2048x1024 .f32) (harg3 : arg3.IsWhole) (arg4 : Memref sig .tc .vmem S1024x128 .f32) (harg4 : arg4.IsWhole)
    (arg5 : Memref sig .tc .vmem S1024x128 .f32) (harg5 : arg5.IsWhole) (hc0 : ¬isFirst i) (hc1 : isLast i)
    (x0 : Vec F S128x2048 .f32) (x1 : Vec F S2048x1024 .f32) (xs : Vec F S1024x128 .f32)
    (E : Set ℕ) (K : PUnit → sProp 𝕄) :
    iprop(owns (c : Thread nD τ) arg2 fullShare x0 ∗ owns (c : Thread nD τ) arg3 fullShare x1 ∗ (∃ d, owns (c : Thread nD τ) arg4 fullShare d)
          ∗ owns (c : Thread nD τ) arg5 fullShare xs
          ∗ (iprop(owns (c : Thread nD τ) arg2 fullShare x0 ∗ owns (c : Thread nD τ) arg3 fullShare x1
              ∗ owns (c : Thread nD τ) arg4 fullShare (k0_pay2 i x0 x1 xs)
              ∗ owns (c : Thread nD τ) arg5 fullShare (k0_pay2 i x0 x1 xs)) -∗ K ⟨⟩))
      ⊢ wp frame (wpE (defs₀ (F := F)) Variants.none c none) E (cc0__onehot_matmul_kernel i arg2 harg2 arg3 harg3 arg4 harg4 arg5 harg5) K := by
  simp only [cc0__onehot_matmul_kernel_eq_skeleton]; unfold cc0__onehot_matmul_kernel_skel
  unfold owns
  iintro ⟨⟨%f0, %hf0, H0⟩, ⟨%f1, %hf1, H1⟩, ⟨%d2, %f2, -, H2⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_words
    rw [View.read_writes_eq_canon _ _ _ (fun y => ⟨_, List.mem_singleton_self _, View.mem_set_unit_zero zeroOff Facts₀.inb_S1024x128_S1024x128_0_0 y⟩),
      View.canon_unit_zero zeroOff]
    simp only [View.readAt_eq_ld, harg2.read_unread, harg3.read_unread, harg5.read_unread, View.ld_unit_zero (S := S128x2048) zeroOff,
      View.ld_unit_zero (S := S2048x1024) zeroOff, View.ld_unit_zero (S := S1024x128) zeroOff, View.readCov_unit_zero (S := S1024x128) _ zeroOff]
  iexists _; isplitr
  swap; · iexact HS
  ipureintro
  sl_unfold_words
  rw [View.read_writes_eq_canon _ _ _ (fun y => ⟨_, List.mem_singleton_self _, View.mem_set_unit_zero zeroOff Facts₀.inb_S1024x128_S1024x128_0_0 y⟩),
    View.canon_unit_zero zeroOff]
  simp only [View.readAt_eq_ld, harg2.read_unread, harg3.read_unread, harg5.read_unread, View.ld_unit_zero (S := S128x2048) zeroOff,
    View.ld_unit_zero (S := S2048x1024) zeroOff, View.ld_unit_zero (S := S1024x128) zeroOff]

end Cert.Kernel.Point

end
-- ==== Proof.KernelMask.lean ====
/-
  Which entries of its two input blocks a step of the one-hot product reads. The body replaces by
  zero every entry whose coordinate along the contracted axis, counted from the start of the whole
  array (step number times 2048 plus the position inside the block), is 50000 or more: exactly the
  entries of the last block that lie past the arrays' end, which the transfer does not fill. So the
  product of a step is the same for any two pairs of blocks that agree on the entries in range.
-/
import proofs.«158598_j66949950210384_2_alg».proof.Proof.Gen.Kernel.Frame
import proofs.«158598_j66949950210384_2_alg».proof.Proof.Gen.Kernel.Skeleton

set_option maxRecDepth 16384

noncomputable section

namespace Cert.Kernel.Mask

open Cert.Kernel Cert.Kernel.Gen
open Idealize.ShloMosaic Idealize.ShloMosaic.TcCoe Idealize.SL.Sem
open Idealize.ShloMosaic.Pipeline (Window)

variable {F : FTy → Type} [FloatOps F]

/-- The body's comparison, on 32-bit words, of "step `k` times 2048 plus position `j`" with 50000 is the
    comparison of the natural numbers: nothing wraps, since `k < 25` and `j < 2048`. -/
theorem inRange_iff (k j : Nat) (hk : k < 25) (hj : j < 2048) :
    IntOp.cmpi .slt (IntOp.addi (Scalar.muli (BitVec.ofNat 32 k) 2048#32) (BitVec.ofNat 32 j)) 50000#32 = 1#1 ↔ k * 2048 + j < 50000 := by
  have e : IntOp.addi (Scalar.muli (BitVec.ofNat 32 k) 2048#32) (BitVec.ofNat 32 j) = BitVec.ofNat 32 (k * 2048 + j) := by
    unfold IntOp.addi Scalar.muli IntOp.muli
    apply BitVec.eq_of_toNat_eq
    simp only [BitVec.toNat_add, BitVec.toNat_mul, BitVec.toNat_ofNat]
    omega
  rw [e]
  unfold IntOp.cmpi
  simp only [BitVec.slt]
  have ht : (BitVec.ofNat 32 (k * 2048 + j)).toInt = ((k * 2048 + j : Nat) : Int) := by
    rw [BitVec.toInt_eq_toNat_cond]; simp only [BitVec.toNat_ofNat]
    have : (k * 2048 + j) % 2 ^ 32 = k * 2048 + j := Nat.mod_eq_of_lt (by omega)
    rw [this]; split <;> omega
  have h5 : (50000#32).toInt = 50000 := by decide
  rw [ht, h5]
  constructor
  · intro h; by_contra hn; rw [decide_eq_false (by omega)] at h; exact absurd h (by decide)
  · intro h; rw [decide_eq_true (by omega)]; rfl

/-- The table block with its out-of-range columns replaced by zero (the contracted axis is its second). -/
def keepA (i : grid0.Coords) (x : Vec F S128x2048 .f32) : FVec F S128x2048 .bf16 :=
  select (cmpi .slt (addi (broadcast S128x2048 (Scalar.muli (BitVec.ofNat 32 (i 1).val) 2048#32)) (iota .tc S128x2048 32 [1] iota_S128x2048_d1_w32)) (broadcast S128x2048 50000#32))
    (truncf .bf16 x bitsLt_bf16_f32) (broadcast S128x2048 (Scalar.ofBits .bf16 0x0000#16))

/-- The one-hot block with its out-of-range rows replaced by zero (the contracted axis is its first). -/
def keepB (i : grid0.Coords) (x : Vec F S2048x1024 .f32) : FVec F S2048x1024 .bf16 :=
  select (cmpi .slt (addi (broadcast S2048x1024 (Scalar.muli (BitVec.ofNat 32 (i 1).val) 2048#32)) (iota .tc S2048x1024 32 [0] iota_S2048x1024_d0_w32)) (broadcast S2048x1024 50000#32))
    (truncf .bf16 x bitsLt_bf16_f32) (broadcast S2048x1024 (Scalar.ofBits .bf16 0x0000#16))

/-- A step's arithmetic: the matrix product of the two blocks so masked, added to what the scratch held. -/
theorem pay_eq (i : grid0.Coords) (x0 : Vec F S128x2048 .f32) (x1 : Vec F S2048x1024 .f32) (xs : Vec F S1024x128 .f32) :
    k0_pay2 i x0 x1 xs = shapeCast S1024x128 (addf xs (matmul dot_S2048x1024_S128x2048_S1024x128_0_1_1_0_n_n none (keepB i x1) (keepA i x0)
      (constant S1024x128 .f32 0x00000000#32))) shapeCasts_S1024x128_S1024x128 := rfl

theorem keepA_apply (i : grid0.Coords) (x : Vec F S128x2048 .f32) (j : S128x2048.Idx) :
    keepA i x j = if (i 1).val * 2048 + (j 1).val < 50000 then FloatOps.truncf .bf16 bitsLt_bf16_f32 (x j) else Scalar.ofBits .bf16 0x0000#16 := by
  have hk : (i 1).val < 25 := (i 1).isLt
  have hj : (j 1).val < 2048 := (j 1).isLt
  have hi : iota .tc S128x2048 32 [1] iota_S128x2048_d1_w32 j = BitVec.ofNat 32 (j 1).val := by
    unfold iota; simp only [List.foldl_cons, List.foldl_nil, Nat.zero_mul, Nat.zero_add]
  show Scalar.select (IntOp.cmpi .slt (IntOp.addi (Scalar.muli (BitVec.ofNat 32 (i 1).val) 2048#32) (iota .tc S128x2048 32 [1] iota_S128x2048_d1_w32 j)) 50000#32)
    (FloatOps.truncf .bf16 bitsLt_bf16_f32 (x j)) (Scalar.ofBits .bf16 0x0000#16) = _
  rw [hi]; unfold Scalar.select
  by_cases h : (i 1).val * 2048 + (j 1).val < 50000
  · rw [if_pos h]; exact if_pos ((inRange_iff _ _ hk hj).mpr h)
  · rw [if_neg h]; exact if_neg (fun hc => h ((inRange_iff _ _ hk hj).mp hc))

theorem keepB_apply (i : grid0.Coords) (x : Vec F S2048x1024 .f32) (j : S2048x1024.Idx) :
    keepB i x j = if (i 1).val * 2048 + (j 0).val < 50000 then FloatOps.truncf .bf16 bitsLt_bf16_f32 (x j) else Scalar.ofBits .bf16 0x0000#16 := by
  have hk : (i 1).val < 25 := (i 1).isLt
  have hj : (j 0).val < 2048 := (j 0).isLt
  have hi : iota .tc S2048x1024 32 [0] iota_S2048x1024_d0_w32 j = BitVec.ofNat 32 (j 0).val := by
    unfold iota; simp only [List.foldl_cons, List.foldl_nil, Nat.zero_mul, Nat.zero_add]
  show Scalar.select (IntOp.cmpi .slt (IntOp.addi (Scalar.muli (BitVec.ofNat 32 (i 1).val) 2048#32) (iota .tc S2048x1024 32 [0] iota_S2048x1024_d0_w32 j)) 50000#32)
    (FloatOps.truncf .bf16 bitsLt_bf16_f32 (x j)) (Scalar.ofBits .bf16 0x0000#16) = _
  rw [hi]; unfold Scalar.select
  by_cases h : (i 1).val * 2048 + (j 0).val < 50000
  · rw [if_pos h]; exact if_pos ((inRange_iff _ _ hk hj).mpr h)
  · rw [if_neg h]; exact if_neg (fun hc => h ((inRange_iff _ _ hk hj).mp hc))

/-- Two pairs of blocks that agree on the entries in range give one step the same result. -/
theorem pay_congr (i : grid0.Coords) (x0 x0' : Vec F S128x2048 .f32) (x1 x1' : Vec F S2048x1024 .f32) (xs : Vec F S1024x128 .f32)
    (h0 : ∀ j : S128x2048.Idx, (i 1).val * 2048 + (j 1).val < 50000 → x0 j = x0' j)
    (h1 : ∀ j : S2048x1024.Idx, (i 1).val * 2048 + (j 0).val < 50000 → x1 j = x1' j) :
    k0_pay2 i x0 x1 xs = k0_pay2 i x0' x1' xs := by
  have eA : keepA i x0 = keepA i x0' := funext fun j => by
    rw [keepA_apply, keepA_apply]; split
    · next h => rw [h0 j h]
    · rfl
  have eB : keepB i x1 = keepB i x1' := funext fun j => by
    rw [keepB_apply, keepB_apply]; split
    · next h => rw [h1 j h]
    · rfl
  rw [pay_eq, pay_eq, eA, eB]

/-- The transfer of the table's block at grid coordinates `i` fills the entry `j` of the staging buffer exactly
    when the entry's column, counted in the whole array, is below 50000. -/
theorem movedA_iff (i : grid0.Coords) (j : S128x2048.Idx) : win0_0.moved i j = true ↔ (i 1).val * 2048 + (j 1).val < 50000 := by
  have hk : (i 1).val < 25 := (i 1).isLt
  have hj0 : (j 0).val < 128 := (j 0).isLt
  have hj1 : (j 1).val < 2048 := (j 1).isLt
  have e1 : cc0_transform_0 i 1 = (i 1).val := by
    show (BitVec.ofNat 32 (i 1).val).toNat = (i 1).val
    rw [BitVec.toNat_ofNat]; exact Nat.mod_eq_of_lt (by omega)
  have x0 : win0_0.xsize i 0 = 128 := rfl
  have x1 : win0_0.xsize i 1 = (Pipeline.Clip.of (i 1).val 2048 50000).extent 2048 := by
    show (Pipeline.Clip.of (cc0_transform_0 i 1) 2048 50000).extent 2048 = _; rw [e1]
  rw [Window.moved_iff]
  constructor
  · intro h; have h1 := h 1; rw [x1] at h1
    unfold Pipeline.Clip.of at h1; split at h1
    · next hle => omega
    · next hle => simp only [Pipeline.Clip.extent] at h1; omega
  · intro h a
    match a with
    | ⟨0, _⟩ => exact x0 ▸ hj0
    | ⟨1, _⟩ =>
      show (j 1).val < win0_0.xsize i 1
      rw [x1]; unfold Pipeline.Clip.of; split
      · exact hj1
      · simp only [Pipeline.Clip.extent]; omega

/-- The same for the one-hot block, whose contracted axis is its first. -/
theorem movedB_iff (i : grid0.Coords) (j : S2048x1024.Idx) : win0_1.moved i j = true ↔ (i 1).val * 2048 + (j 0).val < 50000 := by
  have hk : (i 1).val < 25 := (i 1).isLt
  have hi0 : (i 0).val < 2 := (i 0).isLt
  have hj0 : (j 0).val < 2048 := (j 0).isLt
  have hj1 : (j 1).val < 1024 := (j 1).isLt
  have e0 : cc0_transform_1 i 0 = (i 1).val := by
    show (BitVec.ofNat 32 (i 1).val).toNat = (i 1).val
    rw [BitVec.toNat_ofNat]; exact Nat.mod_eq_of_lt (by omega)
  have e1 : cc0_transform_1 i 1 = (i 0).val := by
    show (BitVec.ofNat 32 (i 0).val).toNat = (i 0).val
    rw [BitVec.toNat_ofNat]; exact Nat.mod_eq_of_lt (by omega)
  have x0 : win0_1.xsize i 0 = (Pipeline.Clip.of (i 1).val 2048 50000).extent 2048 := by
    show (Pipeline.Clip.of (cc0_transform_1 i 0) 2048 50000).extent 2048 = _; rw [e0]
  have x1 : win0_1.xsize i 1 = 1024 := by
    show (Pipeline.Clip.of (cc0_transform_1 i 1) 1024 2048).extent 1024 = _; rw [e1]
    unfold Pipeline.Clip.of; rw [if_pos (by omega)]
  rw [Window.moved_iff]
  constructor
  · intro h; have h1 := h 0; rw [x0] at h1
    unfold Pipeline.Clip.of at h1; split at h1
    · next hle => omega
    · next hle => simp only [Pipeline.Clip.extent] at h1; omega
  · intro h a
    match a with
    | ⟨0, _⟩ =>
      show (j 0).val < win0_1.xsize i 0
      rw [x0]; unfold Pipeline.Clip.of; split
      · exact hj0
      · simp only [Pipeline.Clip.extent]; omega
    | ⟨1, _⟩ => exact x1 ▸ hj1

end Cert.Kernel.Mask

end
-- ==== Proof.KernelAcc.lean ====
/-
  The running block sum of the one-hot product over the grid, and the run of the whole program.

  The grid is two blocks of 1024 result rows by 25 steps along the contracted axis of length 50000
  (2048 coordinates a step; the last step's blocks hang 1200 coordinates past the arrays' end). At
  grid point `t` (row block `t / 25`, step `t % 25`) the scratch buffer ends holding `acc t`: the
  step's product of the two current blocks added to the cleared block at a first step, to `acc (t - 1)`
  otherwise. The blocks are named with zeros on the entries the transfer does not fill; the body
  masks exactly those entries, so whatever the staging buffers hold there the step computes the
  same (`Mask.pay_congr`). At a last step the result's staging buffer receives `acc t` and is
  written back to rows `1024 * (t / 25) ..` of the result.

  From these the library's pipeline rule gives: every weakly fair execution of the program ends, no
  access faults, the two argument arrays end as they began, and the result array ends at the
  write-backs of `acc 24` and `acc 49` (`run_main`).
-/
import proofs.«158598_j66949950210384_2_alg».proof.Proof.KernelPoint
import proofs.«158598_j66949950210384_2_alg».proof.Proof.KernelMask

set_option maxRecDepth 16384

noncomputable section

namespace Cert.Kernel.Acc

open Cert.Kernel Cert.Kernel.Gen Cert.Kernel.Point Cert.Kernel.Mask
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid: which points are first and last steps -/

theorem first_iff : ∀ t : Fin cfg0.N, isFirst (grid0.coords t) ↔ t.val % 25 = 0 :=
  (by decide +kernel : ∀ t : Fin grid0.N, isFirst (grid0.coords t) ↔ t.val % 25 = 0)
theorem last_iff : ∀ t : Fin cfg0.N, isLast (grid0.coords t) ↔ t.val % 25 = 24 :=
  (by decide +kernel : ∀ t : Fin grid0.N, isLast (grid0.coords t) ↔ t.val % 25 = 24)
/-- The step along the contracted axis and the row block of a point. -/
theorem coords_step : ∀ t : Fin cfg0.N, ((grid0.coords t) 1).val = t.val % 25 :=
  (by decide +kernel : ∀ t : Fin grid0.N, ((grid0.coords t) 1).val = t.val % 25)
theorem coords_rowBlock : ∀ t : Fin cfg0.N, ((grid0.coords t) 0).val = t.val / 25 :=
  (by decide +kernel : ∀ t : Fin grid0.N, ((grid0.coords t) 0).val = t.val / 25)
/-- The input windows are never idle; the result's window is idle exactly off the last steps, where it is
    not written back either. -/
theorem liveA : ∀ t : Fin cfg0.N, cfg0.idle 0 (grid0.coords t) = false := by decide +kernel
theorem liveB : ∀ t : Fin cfg0.N, cfg0.idle 1 (grid0.coords t) = false := by decide +kernel
theorem idleOut : ∀ t : Fin cfg0.N, ¬isLast (grid0.coords t) → cfg0.idle 2 (grid0.coords t) = true := by decide +kernel
theorem liveOut : ∀ t : Fin cfg0.N, isLast (grid0.coords t) → cfg0.idle 2 (grid0.coords t) = false := by decide +kernel
theorem noFlushOut : ∀ t : Fin cfg0.N, ¬isLast (grid0.coords t) → (cfg0.win 2).flush t = false := by decide +kernel

/-! ## The staging memrefs of a point, and the scratch -/

abbrev msA (t : Fin cfg0.N) : Memref sig .tc .vmem S128x2048 .f32 := win0_0.stage (cfg0.slots t 0)
abbrev hsA (t : Fin cfg0.N) : (msA t).IsWhole := hstage0_0 ((cfg0.slots t 0).cast nbuf0_0)
abbrev msB (t : Fin cfg0.N) : Memref sig .tc .vmem S2048x1024 .f32 := win0_1.stage (cfg0.slots t 1)
abbrev hsB (t : Fin cfg0.N) : (msB t).IsWhole := hstage0_1 ((cfg0.slots t 1).cast nbuf0_1)
abbrev msO (t : Fin cfg0.N) : Memref sig .tc .vmem S1024x128 .f32 := win0_2.stage (cfg0.slots t 2)
abbrev hsO (t : Fin cfg0.N) : (msO t).IsWhole := hstage0_2 ((cfg0.slots t 2).cast nbuf0_2)
abbrev scM : Memref sig .tc .vmem S1024x128 .f32 := Memref.whole cc0_scratch0

/-- The region's own invariant: the scratch at some contents and the generator register at some state. -/
theorem PhiA_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

/-! ## The blocks and the running sum -/

/-- The table's block at point `t`, zero where the transfer fills nothing. -/
def blkA (c : Dev nD) (t : Fin cfg0.N) : S128x2048.Idx → Elt F .f32 :=
  win0_0.fill (grid0.coords t) (fun _ => Scalar.ofBits .f32 0#32) (iblk m c 0 t)
/-- The one-hot array's block at point `t`, zero where the transfer fills nothing. -/
def blkB (c : Dev nD) (t : Fin cfg0.N) : S2048x1024.Idx → Elt F .f32 :=
  win0_1.fill (grid0.coords t) (fun _ => Scalar.ofBits .f32 0#32) (iblk m c 1 t)

/-- THE RUNNING SUM: what the scratch holds after point `n`. -/
def acc (c : Dev nD) : (n : ℕ) → n < cfg0.N → Vec F S1024x128 .f32
  | 0, hn => k0_pay2 (grid0.coords ⟨0, hn⟩) (blkA m c ⟨0, hn⟩) (blkB m c ⟨0, hn⟩) (k0_pay1 (F := F))
  | n + 1, hn => k0_pay2 (grid0.coords ⟨n + 1, hn⟩) (blkA m c ⟨n + 1, hn⟩) (blkB m c ⟨n + 1, hn⟩)
      (if (n + 1) % 25 = 0 then k0_pay1 (F := F) else acc c n (Nat.lt_of_succ_lt hn))

theorem acc_first (c : Dev nD) (t : Fin cfg0.N) (h : t.val % 25 = 0) :
    acc m c t.val t.isLt = k0_pay2 (grid0.coords t) (blkA m c t) (blkB m c t) (k0_pay1 (F := F)) := by
  obtain ⟨n, hn⟩ := t
  cases n with
  | zero => rfl
  | succ n => show k0_pay2 _ _ _ (if (n + 1) % 25 = 0 then _ else _) = _; rw [if_pos h]

theorem acc_next (c : Dev nD) (t : Fin cfg0.N) (h : ¬t.val % 25 = 0) :
    acc m c t.val t.isLt = k0_pay2 (grid0.coords t) (blkA m c t) (blkB m c t)
      (acc m c (t.val - 1) (Nat.lt_of_le_of_lt (Nat.sub_le _ _) t.isLt)) := by
  obtain ⟨n, hn⟩ := t
  cases n with
  | zero => exact absurd (Nat.zero_mod _) h
  | succ n => show k0_pay2 _ _ _ (if (n + 1) % 25 = 0 then _ else _) = _; rw [if_neg h]; rfl

/-- A step run on staging buffers that hold the blocks with ANYTHING past the arrays' end computes what it
    computes on the zero-filled blocks. -/
theorem pay_fill (c : Dev nD) (t : Fin cfg0.N) (d0 : S128x2048.Idx → Elt F .f32) (d1 : S2048x1024.Idx → Elt F .f32) (xs : Vec F S1024x128 .f32) :
    k0_pay2 (grid0.coords t) (win0_0.fill (grid0.coords t) d0 (iblk m c 0 t)) (win0_1.fill (grid0.coords t) d1 (iblk m c 1 t)) xs
      = k0_pay2 (grid0.coords t) (blkA m c t) (blkB m c t) xs := by
  refine pay_congr _ _ _ _ _ _ (fun j hj => ?_) (fun j hj => ?_)
  · have hm := (movedA_iff (grid0.coords t) j).mpr hj
    unfold blkA Window.fill; rw [dif_pos hm, dif_pos hm]
  · have hm := (movedB_iff (grid0.coords t) j).mpr hj
    unfold blkB Window.fill; rw [dif_pos hm, dif_pos hm]

/-- The invariant before position `n`: the region's own before the first point; afterwards the scratch at the
    running sum of the point before, and the generator register at some state. -/
def PhiS (c : Dev nD) : (n : ℕ) → n ≤ cfg0.N → sProp 𝕄
  | 0, _ => Pipeline.ΦA spec0 c
  | n + 1, hn => iprop(iprop(owns (c : Thread nD τ) scM fullShare (acc m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM fullShare (acc m c n hn)) ∗ (∃ r, prngReg c r)) := rfl
theorem PhiS_pos (c : Dev nD) (n : ℕ) (h : n ≤ cfg0.N) (hz : n ≠ 0) :
    PhiS m c n h = iprop(iprop(owns (c : Thread nD τ) scM fullShare (acc m c (n - 1) (by omega))) ∗ (∃ r, prngReg c r)) := by
  cases n with
  | zero => exact absurd rfl hz
  | succ n => rfl

/-! ## The pipeline's proof data -/

/-- The arrays as the region finds them; after the body at point `t` each input's buffer at its block (on the part
    the transfer fills, which is all that is stated of it) and the result's at the running sum; the invariant
    `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => blkA m c t
    | ⟨1, _⟩ => blkB m c t
    | ⟨2, _⟩ => acc m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem afterA (c : Dev nD) (t : Fin cfg0.N) : (dats m 0 c).after 0 t = blkA m c t := by dsimp only [dats]
theorem afterB (c : Dev nD) (t : Fin cfg0.N) : (dats m 0 c).after 1 t = blkB m c t := by dsimp only [dats]
theorem afterO (c : Dev nD) (t : Fin cfg0.N) : (dats m 0 c).after 2 t = acc m c t.val t.isLt := by dsimp only [dats]

/-- What the body finds in the inputs' buffers: the block just fetched, anything past the arrays' end. -/
theorem beforeA (c : Dev nD) (t : Fin cfg0.N) (d) :
    (dats m 0 c).before 0 t d = win0_0.fill (grid0.coords t) d (iblk m c 0 t) := by
  unfold Dat.before; rw [if_pos (fetch0_0 t)]; rfl
theorem beforeB (c : Dev nD) (t : Fin cfg0.N) (d) :
    (dats m 0 c).before 1 t d = win0_1.fill (grid0.coords t) d (iblk m c 1 t) := by
  unfold Dat.before; rw [if_pos (fetch0_1 t)]; rfl

/-- What the obligation asks of the inputs' buffers afterwards: the block on the part the transfer fills. -/
theorem leavesA (c : Dev nD) (t : Fin cfg0.N) :
    (dats m 0 c).leaves 0 t = iprop(∃ d, owns (c : Thread nD τ) (msA t) fullShare (win0_0.fill (grid0.coords t) d (iblk m c 0 t))) := by
  unfold Dat.leaves; rw [liveA t]
  show iprop(∃ d, owns (c : Thread nD τ) (msA t) fullShare (win0_0.fill (grid0.coords t) d (win0_0.cut (grid0.coords t) ((dats m 0 c).after 0 t)))) = _
  rw [afterA]; unfold blkA; simp only [Window.cut_fill]
theorem leavesB (c : Dev nD) (t : Fin cfg0.N) :
    (dats m 0 c).leaves 1 t = iprop(∃ d, owns (c : Thread nD τ) (msB t) fullShare (win0_1.fill (grid0.coords t) d (iblk m c 1 t))) := by
  unfold Dat.leaves; rw [liveB t]
  show iprop(∃ d, owns (c : Thread nD τ) (msB t) fullShare (win0_1.fill (grid0.coords t) d (win0_1.cut (grid0.coords t) ((dats m 0 c).after 1 t)))) = _
  rw [afterB]; unfold blkB; simp only [Window.cut_fill]
/-- and of the result's at a last step: the running sum. -/
theorem leavesO_last (c : Dev nD) (t : Fin cfg0.N) (h : isLast (grid0.coords t)) :
    (dats m 0 c).leaves 2 t = owns (c : Thread nD τ) (msO t) fullShare (acc m c t.val t.isLt) := by
  unfold Dat.leaves; rw [liveOut t h]
  show owns (c : Thread nD τ) (msO t) fullShare ((dats m 0 c).after 2 t) = _
  rw [afterO]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (msA t) fullShare ((dats m 0 c).before 0 t d))
    ∗ (∃ d, owns (c : Thread nD τ) (msB t) fullShare ((dats m 0 c).before 1 t d))
    ∗ (∃ d, owns (c : Thread nD τ) (msO t) fullShare ((dats m 0 c).before 2 t d)))

def bodyPost (c : Dev nD) (t : Fin cfg0.N) : sProp 𝕄 :=
  iprop((dats m 0 c).Φ t.succ ∗ (dats m 0 c).owesAt () t.succ
    ∗ (dats m 0 c).leaves 0 t
    ∗ (dats m 0 c).leaves 1 t
    ∗ (dats m 0 c).leaves 2 t)

set_option maxHeartbeats 4000000 in
/-- The body at any point, by the three cases of `Point`: the invariant hands it the scratch at the running sum
    of the point before (at anything before the first point) and takes it back at this point's. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [beforeA, beforeB]
  rw [show (dats m 0 c).owesAt () t.succ = (dats m 0 c).owesAt () t.castSucc from rfl]
  rw [show (dats m 0 c).Φ t.succ = PhiS m c (t.val + 1) t.isLt from rfl, PhiS_succ]
  rw [leavesA, leavesB]
  have hN : t.val < 50 := lt_of_lt_of_eq t.isLt (show cfg0.N = 50 from N_0)
  by_cases h0 : t.val % 25 = 0
  · -- a first step
    have hc0 : isFirst (grid0.coords t) := (first_iff t).mpr h0
    have hc1 : ¬isLast (grid0.coords t) := fun h => by have := (last_iff t).mp h; omega
    rw [Dat.leaves_idle (dats m 0 c) 2 t (idleOut t hc1) (noFlushOut t hc1), acc_first m c t h0]
    have hS : (dats m 0 c).Φ t.castSucc ⊢ iprop(iprop((∃ d, owns (c : Thread nD τ) scM fullShare d)) ∗ (∃ r, prngReg c r)) := by
      rw [PhiS_castSucc m c t]
      by_cases hz : t.val = 0
      · rw [PhiS_zero m c _ _ hz, PhiA_eq]
      · rw [PhiS_pos m c _ _ hz]; iintro ⟨HS, Hg⟩; isplitl [HS]
        · iexists _; iexact HS
        iexact Hg
    iintro ⟨HΦ, Ho, ⟨%d0, H0⟩, ⟨%d1, H1⟩, ⟨%d2, H2⟩⟩
    ihave ⟨HS, Hg⟩ := hS $$ HΦ
    iapply (firstStep (F := F) c (grid0.coords t) (msA t) (hsA t) (msB t) (hsB t) (msO t) (hsO t) scM (Memref.isWhole_whole _) hc0 hc1
      (win0_0.fill (grid0.coords t) d0 (iblk m c 0 t)) (win0_1.fill (grid0.coords t) d1 (iblk m c 1 t)) ((dats m 0 c).before 2 t d2) Set.univ _)
    isplitl [H0]; · iexact H0
    isplitl [H1]; · iexact H1
    isplitl [H2]; · iexact H2
    isplitl [HS]; · iexact HS
    iintro ⟨H0, H1, H2, HS⟩
    rw [pay_fill m c t d0 d1]
    isplitl [HS Hg]
    · isplitl [HS]; · iexact HS
      iexact Hg
    isplitl [Ho]; · iexact Ho
    isplitl [H0]; · iexists _; iexact H0
    isplitl [H1]; · iexists _; iexact H1
    iexists _; iexact H2
  · have hc0 : ¬isFirst (grid0.coords t) := fun h => h0 ((first_iff t).mp h)
    have hz : t.val ≠ 0 := fun h => h0 (by rw [h])
    rw [PhiS_castSucc m c t, PhiS_pos m c _ _ hz, acc_next m c t h0]
    by_cases h1 : t.val % 25 = 24
    · -- a last step
      have hc1 : isLast (grid0.coords t) := (last_iff t).mpr h1
      rw [leavesO_last m c t hc1, acc_next m c t h0]
      iintro ⟨⟨HS, Hg⟩, Ho, ⟨%d0, H0⟩, ⟨%d1, H1⟩, ⟨%d2, H2⟩⟩
      iapply (lastStep (F := F) c (grid0.coords t) (msA t) (hsA t) (msB t) (hsB t) (msO t) (hsO t) scM (Memref.isWhole_whole _) hc0 hc1
        (win0_0.fill (grid0.coords t) d0 (iblk m c 0 t)) (win0_1.fill (grid0.coords t) d1 (iblk m c 1 t)) _ Set.univ _)
      isplitl [H0]; · iexact H0
      isplitl [H1]; · iexact H1
      isplitl [H2]; · iexists _; iexact H2
      isplitl [HS]; · iexact HS
      iintro ⟨H0, H1, H2, HS⟩
      rw [pay_fill m c t d0 d1]
      isplitl [HS Hg]
      · isplitl [HS]; · iexact HS
        iexact Hg
      isplitl [Ho]; · iexact Ho
      isplitl [H0]; · iexists _; iexact H0
      isplitl [H1]; · iexists _; iexact H1
      iexact H2
    · -- a step in between
      have hc1 : ¬isLast (grid0.coords t) := fun h => h1 ((last_iff t).mp h)
      rw [Dat.leaves_idle (dats m 0 c) 2 t (idleOut t hc1) (noFlushOut t hc1)]
      iintro ⟨⟨HS, Hg⟩, Ho, ⟨%d0, H0⟩, ⟨%d1, H1⟩, ⟨%d2, H2⟩⟩
      iapply (middleStep (F := F) c (grid0.coords t) (msA t) (hsA t) (msB t) (hsB t) (msO t) (hsO t) scM (Memref.isWhole_whole _) hc0 hc1
        (win0_0.fill (grid0.coords t) d0 (iblk m c 0 t)) (win0_1.fill (grid0.coords t) d1 (iblk m c 1 t)) ((dats m 0 c).before 2 t d2) _ Set.univ _)
      isplitl [H0]; · iexact H0
      isplitl [H1]; · iexact H1
      isplitl [H2]; · iexact H2
      isplitl [HS]; · iexact HS
      iintro ⟨H0, H1, H2, HS⟩
      rw [pay_fill m c t d0 d1]
      isplitl [HS Hg]
      · isplitl [HS]; · iexact HS
        iexact Hg
      isplitl [Ho]; · iexact Ho
      isplitl [H0]; · iexists _; iexact H0
      isplitl [H1]; · iexists _; iexact H1
      iexists _; iexact H2

/-- The library's body obligation, at every point. -/
theorem body_obligation (c : Dev nD) : BodyObligationLoose (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 50 := N_0; omega), PhiA_eq]
  iintro ⟨HS, Hg⟩
  isplitl [HS]
  · iexists _; iexact HS
  iexact Hg

/-! ## The run -/

set_option backward.isDefEq.respectTransparency.types false in
/-- For any float values, from any memory with zero counters: every weakly fair execution of the program
    terminates without a fault, the argument arrays unchanged and the result array at the write-backs the
    library computes from the proof data. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hin := hin m) (hout := hout m)

/-- The frame: the program runs to the end and its two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Acc

end
-- ==== Proof.KernelIdealPoint.lean ====
/-
  One grid point of the one-hot product kernel, on any whole staging buffers and at any float
  instance. The body keeps a running block sum in its scratch buffer: at the first step of the
  contracted axis it clears the scratch, at every step it adds the product of the two current
  blocks (their out-of-range tail replaced by zeros) to it, and at the last step it copies the
  scratch into the result's staging buffer. Three cases of the two branch conditions occur on the
  grid; each is stated here as a triple whose postcondition names what the scratch (and, at the
  last step, the result's buffer) holds: the body's own arithmetic `k0_pay2` applied to the two
  input buffers' contents and to what the scratch held (the cleared block `k0_pay1` at a first
  step).
-/
import proofs.«158598_j66949950210384_2_alg».proof.Proof.Gen.KernelIdeal.Frame
import proofs.«158598_j66949950210384_2_alg».proof.Proof.Gen.KernelIdeal.Skeleton
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Point

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The body's first branch condition: the step along the contracted axis is the first one. -/
abbrev isFirst (i : grid0.Coords) : Prop := (Scalar.cmpi .ne (Scalar.extui (Scalar.cmpi .eq (BitVec.ofNat 32 (i 1).val) 0#32)) 0#32) = 1#1
/-- The body's second branch condition: the step along the contracted axis is the last one. -/
abbrev isLast (i : grid0.Coords) : Prop := k0_cond2 i = 1#1

/-- The offsets `![0, 0]` are zero on both axes. -/
theorem zeroOff : (![0, 0] : Fin 2 → Nat) = fun _ => 0 := funext fun a => by fin_cases a <;> rfl

set_option maxHeartbeats 1000000 in
/-- A first step that is not a last one: the scratch, whatever it held, ends at the product of the two
    blocks added to the cleared block; the inputs' buffers and the result's buffer are left as found. -/
theorem firstStep (c : Dev nD) (i : grid0.Coords) (arg2 : Memref sig .tc .vmem S128x2048 .f32) (harg2 : arg2.IsWhole)
    (arg3 : Memref sig .tc .vmem S2048x1024 .f32) (harg3 : arg3.IsWhole) (arg4 : Memref sig .tc .vmem S1024x128 .f32) (harg4 : arg4.IsWhole)
    (arg5 : Memref sig .tc .vmem S1024x128 .f32) (harg5 : arg5.IsWhole) (hc0 : isFirst i) (hc1 : ¬isLast i)
    (x0 : Vec F S128x2048 .f32) (x1 : Vec F S2048x1024 .f32) (xi : Vec F S1024x128 .f32)
    (E : Set ℕ) (K : PUnit → sProp 𝕄) :
    iprop(owns (c : Thread nD τ) arg2 fullShare x0 ∗ owns (c : Thread nD τ) arg3 fullShare x1 ∗ owns (c : Thread nD τ) arg4 fullShare xi
          ∗ (∃ d, owns (c : Thread nD τ) arg5 fullShare d)
          ∗ (iprop(owns (c : Thread nD τ) arg2 fullShare x0 ∗ owns (c : Thread nD τ) arg3 fullShare x1 ∗ owns (c : Thread nD τ) arg4 fullShare xi
              ∗ owns (c : Thread nD τ) arg5 fullShare (k0_pay2 i x0 x1 (k0_pay1 (F := F)))) -∗ K ⟨⟩))
      ⊢ wp frame (wpE (defs₀ (F := F)) Variants.none c none) E (cc0__onehot_matmul_kernel i arg2 harg2 arg3 harg3 arg4 harg4 arg5 harg5) K := by
  simp only [cc0__onehot_matmul_kernel_eq_skeleton]; unfold cc0__onehot_matmul_kernel_skel
  unfold owns
  iintro ⟨⟨%f0, %hf0, H0⟩, ⟨%f1, %hf1, H1⟩, ⟨%f2, %hf2, H2⟩, ⟨%ds, %fs, -, HS⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS
  ipureintro
  sl_unfold_words
  rw [View.read_writes_eq_canon _ _ _ (fun y => ⟨_, List.mem_cons_self, View.mem_set_unit_zero zeroOff Facts₀.inb_S1024x128_S1024x128_0_0 y⟩),
    View.canon_cons_unit_zero zeroOff]
  simp only [View.readAt_eq_ld, harg2.read_unread, harg3.read_unread, View.ld_unit_zero (S := S128x2048) zeroOff,
    View.ld_unit_zero (S := S2048x1024) zeroOff, View.readCov_unit_zero (S := S1024x128) _ zeroOff]

set_option maxHeartbeats 1000000 in
/-- A step that is neither first nor last: the scratch ends at the product of the two blocks added to what
    it held; the inputs' buffers and the result's buffer are left as found. -/
theorem middleStep (c : Dev nD) (i : grid0.Coords) (arg2 : Memref sig .tc .vmem S128x2048 .f32) (harg2 : arg2.IsWhole)
    (arg3 : Memref sig .tc .vmem S2048x1024 .f32) (harg3 : arg3.IsWhole) (arg4 : Memref sig .tc .vmem S1024x128 .f32) (harg4 : arg4.IsWhole)
    (arg5 : Memref sig .tc .vmem S1024x128 .f32) (harg5 : arg5.IsWhole) (hc0 : ¬isFirst i) (hc1 : ¬isLast i)
    (x0 : Vec F S128x2048 .f32) (x1 : Vec F S2048x1024 .f32) (xi : Vec F S1024x128 .f32) (xs : Vec F S1024x128 .f32)
    (E : Set ℕ) (K : PUnit → sProp 𝕄) :
    iprop(owns (c : Thread nD τ) arg2 fullShare x0 ∗ owns (c : Thread nD τ) arg3 fullShare x1 ∗ owns (c : Thread nD τ) arg4 fullShare xi
          ∗ owns (c : Thread nD τ) arg5 fullShare xs
          ∗ (iprop(owns (c : Thread nD τ) arg2 fullShare x0 ∗ owns (c : Thread nD τ) arg3 fullShare x1 ∗ owns (c : Thread nD τ) arg4 fullShare xi
              ∗ owns (c : Thread nD τ) arg5 fullShare (k0_pay2 i x0 x1 xs)) -∗ K ⟨⟩))
      ⊢ wp frame (wpE (defs₀ (F := F)) Variants.none c none) E (cc0__onehot_matmul_kernel i arg2 harg2 arg3 harg3 arg4 harg4 arg5 harg5) K := by
  simp only [cc0__onehot_matmul_kernel_eq_skeleton]; unfold cc0__onehot_matmul_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS
  ipureintro
  sl_unfold_words
  rw [View.read_writes_eq_canon _ _ _ (fun y => ⟨_, List.mem_singleton_self _, View.mem_set_unit_zero zeroOff Facts₀.inb_S1024x128_S1024x128_0_0 y⟩),
    View.canon_unit_zero zeroOff]
  simp only [View.readAt_eq_ld, harg2.read_unread, harg3.read_unread, harg5.read_unread, View.ld_unit_zero (S := S128x2048) zeroOff,
    View.ld_unit_zero (S := S2048x1024) zeroOff, View.ld_unit_zero (S := S1024x128) zeroOff]

set_option maxHeartbeats 1000000 in
/-- A last step that is not a first one: the scratch ends at the product of the two blocks added to what it
    held, and the result's buffer, whatever it held, ends at the same block. -/
theorem lastStep (c : Dev nD) (i : grid0.Coords) (arg2 : Memref sig .tc .vmem S128x2048 .f32) (harg2 : arg2.IsWhole)
    (arg3 : Memref sig .tc .vmem S2048x1024 .f32) (harg3 : arg3.IsWhole) (arg4 : Memref sig .tc .vmem S1024x128 .f32) (harg4 : arg4.IsWhole)
    (arg5 : Memref sig .tc .vmem S1024x128 .f32) (harg5 : arg5.IsWhole) (hc0 : ¬isFirst i) (hc1 : isLast i)
    (x0 : Vec F S128x2048 .f32) (x1 : Vec F S2048x1024 .f32) (xs : Vec F S1024x128 .f32)
    (E : Set ℕ) (K : PUnit → sProp 𝕄) :
    iprop(owns (c : Thread nD τ) arg2 fullShare x0 ∗ owns (c : Thread nD τ) arg3 fullShare x1 ∗ (∃ d, owns (c : Thread nD τ) arg4 fullShare d)
          ∗ owns (c : Thread nD τ) arg5 fullShare xs
          ∗ (iprop(owns (c : Thread nD τ) arg2 fullShare x0 ∗ owns (c : Thread nD τ) arg3 fullShare x1
              ∗ owns (c : Thread nD τ) arg4 fullShare (k0_pay2 i x0 x1 xs)
              ∗ owns (c : Thread nD τ) arg5 fullShare (k0_pay2 i x0 x1 xs)) -∗ K ⟨⟩))
      ⊢ wp frame (wpE (defs₀ (F := F)) Variants.none c none) E (cc0__onehot_matmul_kernel i arg2 harg2 arg3 harg3 arg4 harg4 arg5 harg5) K := by
  simp only [cc0__onehot_matmul_kernel_eq_skeleton]; unfold cc0__onehot_matmul_kernel_skel
  unfold owns
  iintro ⟨⟨%f0, %hf0, H0⟩, ⟨%f1, %hf1, H1⟩, ⟨%d2, %f2, -, H2⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_words
    rw [View.read_writes_eq_canon _ _ _ (fun y => ⟨_, List.mem_singleton_self _, View.mem_set_unit_zero zeroOff Facts₀.inb_S1024x128_S1024x128_0_0 y⟩),
      View.canon_unit_zero zeroOff]
    simp only [View.readAt_eq_ld, harg2.read_unread, harg3.read_unread, harg5.read_unread, View.ld_unit_zero (S := S128x2048) zeroOff,
      View.ld_unit_zero (S := S2048x1024) zeroOff, View.ld_unit_zero (S := S1024x128) zeroOff, View.readCov_unit_zero (S := S1024x128) _ zeroOff]
  iexists _; isplitr
  swap; · iexact HS
  ipureintro
  sl_unfold_words
  rw [View.read_writes_eq_canon _ _ _ (fun y => ⟨_, List.mem_singleton_self _, View.mem_set_unit_zero zeroOff Facts₀.inb_S1024x128_S1024x128_0_0 y⟩),
    View.canon_unit_zero zeroOff]
  simp only [View.readAt_eq_ld, harg2.read_unread, harg3.read_unread, harg5.read_unread, View.ld_unit_zero (S := S128x2048) zeroOff,
    View.ld_unit_zero (S := S2048x1024) zeroOff, View.ld_unit_zero (S := S1024x128) zeroOff]

end Cert.KernelIdeal.Point

end
-- ==== Proof.KernelIdealMask.lean ====
/-
  Which entries of its two input blocks a step of the one-hot product reads. The body replaces by
  zero every entry whose coordinate along the contracted axis, counted from the start of the whole
  array (step number times 2048 plus the position inside the block), is 50000 or more: exactly the
  entries of the last block that lie past the arrays' end, which the transfer does not fill. So the
  product of a step is the same for any two pairs of blocks that agree on the entries in range.
-/
import proofs.«158598_j66949950210384_2_alg».proof.Proof.Gen.KernelIdeal.Frame
import proofs.«158598_j66949950210384_2_alg».proof.Proof.Gen.KernelIdeal.Skeleton

set_option maxRecDepth 16384

noncomputable section

namespace Cert.KernelIdeal.Mask

open Cert.KernelIdeal Cert.KernelIdeal.Gen
open Idealize.ShloMosaic Idealize.ShloMosaic.TcCoe Idealize.SL.Sem
open Idealize.ShloMosaic.Pipeline (Window)

variable {F : FTy → Type} [FloatOps F]

/-- The body's comparison, on 32-bit words, of "step `k` times 2048 plus position `j`" with 50000 is the
    comparison of the natural numbers: nothing wraps, since `k < 25` and `j < 2048`. -/
theorem inRange_iff (k j : Nat) (hk : k < 25) (hj : j < 2048) :
    IntOp.cmpi .slt (IntOp.addi (Scalar.muli (BitVec.ofNat 32 k) 2048#32) (BitVec.ofNat 32 j)) 50000#32 = 1#1 ↔ k * 2048 + j < 50000 := by
  have e : IntOp.addi (Scalar.muli (BitVec.ofNat 32 k) 2048#32) (BitVec.ofNat 32 j) = BitVec.ofNat 32 (k * 2048 + j) := by
    unfold IntOp.addi Scalar.muli IntOp.muli
    apply BitVec.eq_of_toNat_eq
    simp only [BitVec.toNat_add, BitVec.toNat_mul, BitVec.toNat_ofNat]
    omega
  rw [e]
  unfold IntOp.cmpi
  simp only [BitVec.slt]
  have ht : (BitVec.ofNat 32 (k * 2048 + j)).toInt = ((k * 2048 + j : Nat) : Int) := by
    rw [BitVec.toInt_eq_toNat_cond]; simp only [BitVec.toNat_ofNat]
    have : (k * 2048 + j) % 2 ^ 32 = k * 2048 + j := Nat.mod_eq_of_lt (by omega)
    rw [this]; split <;> omega
  have h5 : (50000#32).toInt = 50000 := by decide
  rw [ht, h5]
  constructor
  · intro h; by_contra hn; rw [decide_eq_false (by omega)] at h; exact absurd h (by decide)
  · intro h; rw [decide_eq_true (by omega)]; rfl

/-- The table block with its out-of-range columns replaced by zero (the contracted axis is its second). -/
def keepA (i : grid0.Coords) (x : Vec F S128x2048 .f32) : FVec F S128x2048 .bf16 :=
  select (cmpi .slt (addi (broadcast S128x2048 (Scalar.muli (BitVec.ofNat 32 (i 1).val) 2048#32)) (iota .tc S128x2048 32 [1] iota_S128x2048_d1_w32)) (broadcast S128x2048 50000#32))
    (truncf .bf16 x bitsLt_bf16_f32) (broadcast S128x2048 (Scalar.ofBits .bf16 0x0000#16))

/-- The one-hot block with its out-of-range rows replaced by zero (the contracted axis is its first). -/
def keepB (i : grid0.Coords) (x : Vec F S2048x1024 .f32) : FVec F S2048x1024 .bf16 :=
  select (cmpi .slt (addi (broadcast S2048x1024 (Scalar.muli (BitVec.ofNat 32 (i 1).val) 2048#32)) (iota .tc S2048x1024 32 [0] iota_S2048x1024_d0_w32)) (broadcast S2048x1024 50000#32))
    (truncf .bf16 x bitsLt_bf16_f32) (broadcast S2048x1024 (Scalar.ofBits .bf16 0x0000#16))

/-- A step's arithmetic: the matrix product of the two blocks so masked, added to what the scratch held. -/
theorem pay_eq (i : grid0.Coords) (x0 : Vec F S128x2048 .f32) (x1 : Vec F S2048x1024 .f32) (xs : Vec F S1024x128 .f32) :
    k0_pay2 i x0 x1 xs = shapeCast S1024x128 (addf xs (matmul dot_S2048x1024_S128x2048_S1024x128_0_1_1_0_n_n none (keepB i x1) (keepA i x0)
      (constant S1024x128 .f32 0x00000000#32))) shapeCasts_S1024x128_S1024x128 := rfl

theorem keepA_apply (i : grid0.Coords) (x : Vec F S128x2048 .f32) (j : S128x2048.Idx) :
    keepA i x j = if (i 1).val * 2048 + (j 1).val < 50000 then FloatOps.truncf .bf16 bitsLt_bf16_f32 (x j) else Scalar.ofBits .bf16 0x0000#16 := by
  have hk : (i 1).val < 25 := (i 1).isLt
  have hj : (j 1).val < 2048 := (j 1).isLt
  have hi : iota .tc S128x2048 32 [1] iota_S128x2048_d1_w32 j = BitVec.ofNat 32 (j 1).val := by
    unfold iota; simp only [List.foldl_cons, List.foldl_nil, Nat.zero_mul, Nat.zero_add]
  show Scalar.select (IntOp.cmpi .slt (IntOp.addi (Scalar.muli (BitVec.ofNat 32 (i 1).val) 2048#32) (iota .tc S128x2048 32 [1] iota_S128x2048_d1_w32 j)) 50000#32)
    (FloatOps.truncf .bf16 bitsLt_bf16_f32 (x j)) (Scalar.ofBits .bf16 0x0000#16) = _
  rw [hi]; unfold Scalar.select
  by_cases h : (i 1).val * 2048 + (j 1).val < 50000
  · rw [if_pos h]; exact if_pos ((inRange_iff _ _ hk hj).mpr h)
  · rw [if_neg h]; exact if_neg (fun hc => h ((inRange_iff _ _ hk hj).mp hc))

theorem keepB_apply (i : grid0.Coords) (x : Vec F S2048x1024 .f32) (j : S2048x1024.Idx) :
    keepB i x j = if (i 1).val * 2048 + (j 0).val < 50000 then FloatOps.truncf .bf16 bitsLt_bf16_f32 (x j) else Scalar.ofBits .bf16 0x0000#16 := by
  have hk : (i 1).val < 25 := (i 1).isLt
  have hj : (j 0).val < 2048 := (j 0).isLt
  have hi : iota .tc S2048x1024 32 [0] iota_S2048x1024_d0_w32 j = BitVec.ofNat 32 (j 0).val := by
    unfold iota; simp only [List.foldl_cons, List.foldl_nil, Nat.zero_mul, Nat.zero_add]
  show Scalar.select (IntOp.cmpi .slt (IntOp.addi (Scalar.muli (BitVec.ofNat 32 (i 1).val) 2048#32) (iota .tc S2048x1024 32 [0] iota_S2048x1024_d0_w32 j)) 50000#32)
    (FloatOps.truncf .bf16 bitsLt_bf16_f32 (x j)) (Scalar.ofBits .bf16 0x0000#16) = _
  rw [hi]; unfold Scalar.select
  by_cases h : (i 1).val * 2048 + (j 0).val < 50000
  · rw [if_pos h]; exact if_pos ((inRange_iff _ _ hk hj).mpr h)
  · rw [if_neg h]; exact if_neg (fun hc => h ((inRange_iff _ _ hk hj).mp hc))

/-- Two pairs of blocks that agree on the entries in range give one step the same result. -/
theorem pay_congr (i : grid0.Coords) (x0 x0' : Vec F S128x2048 .f32) (x1 x1' : Vec F S2048x1024 .f32) (xs : Vec F S1024x128 .f32)
    (h0 : ∀ j : S128x2048.Idx, (i 1).val * 2048 + (j 1).val < 50000 → x0 j = x0' j)
    (h1 : ∀ j : S2048x1024.Idx, (i 1).val * 2048 + (j 0).val < 50000 → x1 j = x1' j) :
    k0_pay2 i x0 x1 xs = k0_pay2 i x0' x1' xs := by
  have eA : keepA i x0 = keepA i x0' := funext fun j => by
    rw [keepA_apply, keepA_apply]; split
    · next h => rw [h0 j h]
    · rfl
  have eB : keepB i x1 = keepB i x1' := funext fun j => by
    rw [keepB_apply, keepB_apply]; split
    · next h => rw [h1 j h]
    · rfl
  rw [pay_eq, pay_eq, eA, eB]

/-- The transfer of the table's block at grid coordinates `i` fills the entry `j` of the staging buffer exactly
    when the entry's column, counted in the whole array, is below 50000. -/
theorem movedA_iff (i : grid0.Coords) (j : S128x2048.Idx) : win0_0.moved i j = true ↔ (i 1).val * 2048 + (j 1).val < 50000 := by
  have hk : (i 1).val < 25 := (i 1).isLt
  have hj0 : (j 0).val < 128 := (j 0).isLt
  have hj1 : (j 1).val < 2048 := (j 1).isLt
  have e1 : cc0_transform_0 i 1 = (i 1).val := by
    show (BitVec.ofNat 32 (i 1).val).toNat = (i 1).val
    rw [BitVec.toNat_ofNat]; exact Nat.mod_eq_of_lt (by omega)
  have x0 : win0_0.xsize i 0 = 128 := rfl
  have x1 : win0_0.xsize i 1 = (Pipeline.Clip.of (i 1).val 2048 50000).extent 2048 := by
    show (Pipeline.Clip.of (cc0_transform_0 i 1) 2048 50000).extent 2048 = _; rw [e1]
  rw [Window.moved_iff]
  constructor
  · intro h; have h1 := h 1; rw [x1] at h1
    unfold Pipeline.Clip.of at h1; split at h1
    · next hle => omega
    · next hle => simp only [Pipeline.Clip.extent] at h1; omega
  · intro h a
    match a with
    | ⟨0, _⟩ => exact x0 ▸ hj0
    | ⟨1, _⟩ =>
      show (j 1).val < win0_0.xsize i 1
      rw [x1]; unfold Pipeline.Clip.of; split
      · exact hj1
      · simp only [Pipeline.Clip.extent]; omega

/-- The same for the one-hot block, whose contracted axis is its first. -/
theorem movedB_iff (i : grid0.Coords) (j : S2048x1024.Idx) : win0_1.moved i j = true ↔ (i 1).val * 2048 + (j 0).val < 50000 := by
  have hk : (i 1).val < 25 := (i 1).isLt
  have hi0 : (i 0).val < 2 := (i 0).isLt
  have hj0 : (j 0).val < 2048 := (j 0).isLt
  have hj1 : (j 1).val < 1024 := (j 1).isLt
  have e0 : cc0_transform_1 i 0 = (i 1).val := by
    show (BitVec.ofNat 32 (i 1).val).toNat = (i 1).val
    rw [BitVec.toNat_ofNat]; exact Nat.mod_eq_of_lt (by omega)
  have e1 : cc0_transform_1 i 1 = (i 0).val := by
    show (BitVec.ofNat 32 (i 0).val).toNat = (i 0).val
    rw [BitVec.toNat_ofNat]; exact Nat.mod_eq_of_lt (by omega)
  have x0 : win0_1.xsize i 0 = (Pipeline.Clip.of (i 1).val 2048 50000).extent 2048 := by
    show (Pipeline.Clip.of (cc0_transform_1 i 0) 2048 50000).extent 2048 = _; rw [e0]
  have x1 : win0_1.xsize i 1 = 1024 := by
    show (Pipeline.Clip.of (cc0_transform_1 i 1) 1024 2048).extent 1024 = _; rw [e1]
    unfold Pipeline.Clip.of; rw [if_pos (by omega)]
  rw [Window.moved_iff]
  constructor
  · intro h; have h1 := h 0; rw [x0] at h1
    unfold Pipeline.Clip.of at h1; split at h1
    · next hle => omega
    · next hle => simp only [Pipeline.Clip.extent] at h1; omega
  · intro h a
    match a with
    | ⟨0, _⟩ =>
      show (j 0).val < win0_1.xsize i 0
      rw [x0]; unfold Pipeline.Clip.of; split
      · exact hj0
      · simp only [Pipeline.Clip.extent]; omega
    | ⟨1, _⟩ => exact x1 ▸ hj1

end Cert.KernelIdeal.Mask

end
-- ==== Proof.KernelIdealAcc.lean ====
/-
  The running block sum of the one-hot product over the grid, and the run of the whole program.

  The grid is two blocks of 1024 result rows by 25 steps along the contracted axis of length 50000
  (2048 coordinates a step; the last step's blocks hang 1200 coordinates past the arrays' end). At
  grid point `t` (row block `t / 25`, step `t % 25`) the scratch buffer ends holding `acc t`: the
  step's product of the two current blocks added to the cleared block at a first step, to `acc (t - 1)`
  otherwise. The blocks are named with zeros on the entries the transfer does not fill; the body
  masks exactly those entries, so whatever the staging buffers hold there the step computes the
  same (`Mask.pay_congr`). At a last step the result's staging buffer receives `acc t` and is
  written back to rows `1024 * (t / 25) ..` of the result.

  From these the library's pipeline rule gives: every weakly fair execution of the program ends, no
  access faults, the two argument arrays end as they began, and the result array ends at the
  write-backs of `acc 24` and `acc 49` (`run_main`).
-/
import proofs.«158598_j66949950210384_2_alg».proof.Proof.KernelIdealPoint
import proofs.«158598_j66949950210384_2_alg».proof.Proof.KernelIdealMask

set_option maxRecDepth 16384

noncomputable section

namespace Cert.KernelIdeal.Acc

open Cert.KernelIdeal Cert.KernelIdeal.Gen Cert.KernelIdeal.Point Cert.KernelIdeal.Mask
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid: which points are first and last steps -/

theorem first_iff : ∀ t : Fin cfg0.N, isFirst (grid0.coords t) ↔ t.val % 25 = 0 :=
  (by decide +kernel : ∀ t : Fin grid0.N, isFirst (grid0.coords t) ↔ t.val % 25 = 0)
theorem last_iff : ∀ t : Fin cfg0.N, isLast (grid0.coords t) ↔ t.val % 25 = 24 :=
  (by decide +kernel : ∀ t : Fin grid0.N, isLast (grid0.coords t) ↔ t.val % 25 = 24)
/-- The step along the contracted axis and the row block of a point. -/
theorem coords_step : ∀ t : Fin cfg0.N, ((grid0.coords t) 1).val = t.val % 25 :=
  (by decide +kernel : ∀ t : Fin grid0.N, ((grid0.coords t) 1).val = t.val % 25)
theorem coords_rowBlock : ∀ t : Fin cfg0.N, ((grid0.coords t) 0).val = t.val / 25 :=
  (by decide +kernel : ∀ t : Fin grid0.N, ((grid0.coords t) 0).val = t.val / 25)
/-- The input windows are never idle; the result's window is idle exactly off the last steps, where it is
    not written back either. -/
theorem liveA : ∀ t : Fin cfg0.N, cfg0.idle 0 (grid0.coords t) = false := by decide +kernel
theorem liveB : ∀ t : Fin cfg0.N, cfg0.idle 1 (grid0.coords t) = false := by decide +kernel
theorem idleOut : ∀ t : Fin cfg0.N, ¬isLast (grid0.coords t) → cfg0.idle 2 (grid0.coords t) = true := by decide +kernel
theorem liveOut : ∀ t : Fin cfg0.N, isLast (grid0.coords t) → cfg0.idle 2 (grid0.coords t) = false := by decide +kernel
theorem noFlushOut : ∀ t : Fin cfg0.N, ¬isLast (grid0.coords t) → (cfg0.win 2).flush t = false := by decide +kernel

/-! ## The staging memrefs of a point, and the scratch -/

abbrev msA (t : Fin cfg0.N) : Memref sig .tc .vmem S128x2048 .f32 := win0_0.stage (cfg0.slots t 0)
abbrev hsA (t : Fin cfg0.N) : (msA t).IsWhole := hstage0_0 ((cfg0.slots t 0).cast nbuf0_0)
abbrev msB (t : Fin cfg0.N) : Memref sig .tc .vmem S2048x1024 .f32 := win0_1.stage (cfg0.slots t 1)
abbrev hsB (t : Fin cfg0.N) : (msB t).IsWhole := hstage0_1 ((cfg0.slots t 1).cast nbuf0_1)
abbrev msO (t : Fin cfg0.N) : Memref sig .tc .vmem S1024x128 .f32 := win0_2.stage (cfg0.slots t 2)
abbrev hsO (t : Fin cfg0.N) : (msO t).IsWhole := hstage0_2 ((cfg0.slots t 2).cast nbuf0_2)
abbrev scM : Memref sig .tc .vmem S1024x128 .f32 := Memref.whole cc0_scratch0

/-- The region's own invariant: the scratch at some contents and the generator register at some state. -/
theorem PhiA_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

/-! ## The blocks and the running sum -/

/-- The table's block at point `t`, zero where the transfer fills nothing. -/
def blkA (c : Dev nD) (t : Fin cfg0.N) : S128x2048.Idx → Elt F .f32 :=
  win0_0.fill (grid0.coords t) (fun _ => Scalar.ofBits .f32 0#32) (iblk m c 0 t)
/-- The one-hot array's block at point `t`, zero where the transfer fills nothing. -/
def blkB (c : Dev nD) (t : Fin cfg0.N) : S2048x1024.Idx → Elt F .f32 :=
  win0_1.fill (grid0.coords t) (fun _ => Scalar.ofBits .f32 0#32) (iblk m c 1 t)

/-- THE RUNNING SUM: what the scratch holds after point `n`. -/
def acc (c : Dev nD) : (n : ℕ) → n < cfg0.N → Vec F S1024x128 .f32
  | 0, hn => k0_pay2 (grid0.coords ⟨0, hn⟩) (blkA m c ⟨0, hn⟩) (blkB m c ⟨0, hn⟩) (k0_pay1 (F := F))
  | n + 1, hn => k0_pay2 (grid0.coords ⟨n + 1, hn⟩) (blkA m c ⟨n + 1, hn⟩) (blkB m c ⟨n + 1, hn⟩)
      (if (n + 1) % 25 = 0 then k0_pay1 (F := F) else acc c n (Nat.lt_of_succ_lt hn))

theorem acc_first (c : Dev nD) (t : Fin cfg0.N) (h : t.val % 25 = 0) :
    acc m c t.val t.isLt = k0_pay2 (grid0.coords t) (blkA m c t) (blkB m c t) (k0_pay1 (F := F)) := by
  obtain ⟨n, hn⟩ := t
  cases n with
  | zero => rfl
  | succ n => show k0_pay2 _ _ _ (if (n + 1) % 25 = 0 then _ else _) = _; rw [if_pos h]

theorem acc_next (c : Dev nD) (t : Fin cfg0.N) (h : ¬t.val % 25 = 0) :
    acc m c t.val t.isLt = k0_pay2 (grid0.coords t) (blkA m c t) (blkB m c t)
      (acc m c (t.val - 1) (Nat.lt_of_le_of_lt (Nat.sub_le _ _) t.isLt)) := by
  obtain ⟨n, hn⟩ := t
  cases n with
  | zero => exact absurd (Nat.zero_mod _) h
  | succ n => show k0_pay2 _ _ _ (if (n + 1) % 25 = 0 then _ else _) = _; rw [if_neg h]; rfl

/-- A step run on staging buffers that hold the blocks with ANYTHING past the arrays' end computes what it
    computes on the zero-filled blocks. -/
theorem pay_fill (c : Dev nD) (t : Fin cfg0.N) (d0 : S128x2048.Idx → Elt F .f32) (d1 : S2048x1024.Idx → Elt F .f32) (xs : Vec F S1024x128 .f32) :
    k0_pay2 (grid0.coords t) (win0_0.fill (grid0.coords t) d0 (iblk m c 0 t)) (win0_1.fill (grid0.coords t) d1 (iblk m c 1 t)) xs
      = k0_pay2 (grid0.coords t) (blkA m c t) (blkB m c t) xs := by
  refine pay_congr _ _ _ _ _ _ (fun j hj => ?_) (fun j hj => ?_)
  · have hm := (movedA_iff (grid0.coords t) j).mpr hj
    unfold blkA Window.fill; rw [dif_pos hm, dif_pos hm]
  · have hm := (movedB_iff (grid0.coords t) j).mpr hj
    unfold blkB Window.fill; rw [dif_pos hm, dif_pos hm]

/-- The invariant before position `n`: the region's own before the first point; afterwards the scratch at the
    running sum of the point before, and the generator register at some state. -/
def PhiS (c : Dev nD) : (n : ℕ) → n ≤ cfg0.N → sProp 𝕄
  | 0, _ => Pipeline.ΦA spec0 c
  | n + 1, hn => iprop(iprop(owns (c : Thread nD τ) scM fullShare (acc m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM fullShare (acc m c n hn)) ∗ (∃ r, prngReg c r)) := rfl
theorem PhiS_pos (c : Dev nD) (n : ℕ) (h : n ≤ cfg0.N) (hz : n ≠ 0) :
    PhiS m c n h = iprop(iprop(owns (c : Thread nD τ) scM fullShare (acc m c (n - 1) (by omega))) ∗ (∃ r, prngReg c r)) := by
  cases n with
  | zero => exact absurd rfl hz
  | succ n => rfl

/-! ## The pipeline's proof data -/

/-- The arrays as the region finds them; after the body at point `t` each input's buffer at its block (on the part
    the transfer fills, which is all that is stated of it) and the result's at the running sum; the invariant
    `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => blkA m c t
    | ⟨1, _⟩ => blkB m c t
    | ⟨2, _⟩ => acc m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem afterA (c : Dev nD) (t : Fin cfg0.N) : (dats m 0 c).after 0 t = blkA m c t := by dsimp only [dats]
theorem afterB (c : Dev nD) (t : Fin cfg0.N) : (dats m 0 c).after 1 t = blkB m c t := by dsimp only [dats]
theorem afterO (c : Dev nD) (t : Fin cfg0.N) : (dats m 0 c).after 2 t = acc m c t.val t.isLt := by dsimp only [dats]

/-- What the body finds in the inputs' buffers: the block just fetched, anything past the arrays' end. -/
theorem beforeA (c : Dev nD) (t : Fin cfg0.N) (d) :
    (dats m 0 c).before 0 t d = win0_0.fill (grid0.coords t) d (iblk m c 0 t) := by
  unfold Dat.before; rw [if_pos (fetch0_0 t)]; rfl
theorem beforeB (c : Dev nD) (t : Fin cfg0.N) (d) :
    (dats m 0 c).before 1 t d = win0_1.fill (grid0.coords t) d (iblk m c 1 t) := by
  unfold Dat.before; rw [if_pos (fetch0_1 t)]; rfl

/-- What the obligation asks of the inputs' buffers afterwards: the block on the part the transfer fills. -/
theorem leavesA (c : Dev nD) (t : Fin cfg0.N) :
    (dats m 0 c).leaves 0 t = iprop(∃ d, owns (c : Thread nD τ) (msA t) fullShare (win0_0.fill (grid0.coords t) d (iblk m c 0 t))) := by
  unfold Dat.leaves; rw [liveA t]
  show iprop(∃ d, owns (c : Thread nD τ) (msA t) fullShare (win0_0.fill (grid0.coords t) d (win0_0.cut (grid0.coords t) ((dats m 0 c).after 0 t)))) = _
  rw [afterA]; unfold blkA; simp only [Window.cut_fill]
theorem leavesB (c : Dev nD) (t : Fin cfg0.N) :
    (dats m 0 c).leaves 1 t = iprop(∃ d, owns (c : Thread nD τ) (msB t) fullShare (win0_1.fill (grid0.coords t) d (iblk m c 1 t))) := by
  unfold Dat.leaves; rw [liveB t]
  show iprop(∃ d, owns (c : Thread nD τ) (msB t) fullShare (win0_1.fill (grid0.coords t) d (win0_1.cut (grid0.coords t) ((dats m 0 c).after 1 t)))) = _
  rw [afterB]; unfold blkB; simp only [Window.cut_fill]
/-- and of the result's at a last step: the running sum. -/
theorem leavesO_last (c : Dev nD) (t : Fin cfg0.N) (h : isLast (grid0.coords t)) :
    (dats m 0 c).leaves 2 t = owns (c : Thread nD τ) (msO t) fullShare (acc m c t.val t.isLt) := by
  unfold Dat.leaves; rw [liveOut t h]
  show owns (c : Thread nD τ) (msO t) fullShare ((dats m 0 c).after 2 t) = _
  rw [afterO]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (msA t) fullShare ((dats m 0 c).before 0 t d))
    ∗ (∃ d, owns (c : Thread nD τ) (msB t) fullShare ((dats m 0 c).before 1 t d))
    ∗ (∃ d, owns (c : Thread nD τ) (msO t) fullShare ((dats m 0 c).before 2 t d)))

def bodyPost (c : Dev nD) (t : Fin cfg0.N) : sProp 𝕄 :=
  iprop((dats m 0 c).Φ t.succ ∗ (dats m 0 c).owesAt () t.succ
    ∗ (dats m 0 c).leaves 0 t
    ∗ (dats m 0 c).leaves 1 t
    ∗ (dats m 0 c).leaves 2 t)

set_option maxHeartbeats 4000000 in
/-- The body at any point, by the three cases of `Point`: the invariant hands it the scratch at the running sum
    of the point before (at anything before the first point) and takes it back at this point's. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [beforeA, beforeB]
  rw [show (dats m 0 c).owesAt () t.succ = (dats m 0 c).owesAt () t.castSucc from rfl]
  rw [show (dats m 0 c).Φ t.succ = PhiS m c (t.val + 1) t.isLt from rfl, PhiS_succ]
  rw [leavesA, leavesB]
  have hN : t.val < 50 := lt_of_lt_of_eq t.isLt (show cfg0.N = 50 from N_0)
  by_cases h0 : t.val % 25 = 0
  · -- a first step
    have hc0 : isFirst (grid0.coords t) := (first_iff t).mpr h0
    have hc1 : ¬isLast (grid0.coords t) := fun h => by have := (last_iff t).mp h; omega
    rw [Dat.leaves_idle (dats m 0 c) 2 t (idleOut t hc1) (noFlushOut t hc1), acc_first m c t h0]
    have hS : (dats m 0 c).Φ t.castSucc ⊢ iprop(iprop((∃ d, owns (c : Thread nD τ) scM fullShare d)) ∗ (∃ r, prngReg c r)) := by
      rw [PhiS_castSucc m c t]
      by_cases hz : t.val = 0
      · rw [PhiS_zero m c _ _ hz, PhiA_eq]
      · rw [PhiS_pos m c _ _ hz]; iintro ⟨HS, Hg⟩; isplitl [HS]
        · iexists _; iexact HS
        iexact Hg
    iintro ⟨HΦ, Ho, ⟨%d0, H0⟩, ⟨%d1, H1⟩, ⟨%d2, H2⟩⟩
    ihave ⟨HS, Hg⟩ := hS $$ HΦ
    iapply (firstStep (F := F) c (grid0.coords t) (msA t) (hsA t) (msB t) (hsB t) (msO t) (hsO t) scM (Memref.isWhole_whole _) hc0 hc1
      (win0_0.fill (grid0.coords t) d0 (iblk m c 0 t)) (win0_1.fill (grid0.coords t) d1 (iblk m c 1 t)) ((dats m 0 c).before 2 t d2) Set.univ _)
    isplitl [H0]; · iexact H0
    isplitl [H1]; · iexact H1
    isplitl [H2]; · iexact H2
    isplitl [HS]; · iexact HS
    iintro ⟨H0, H1, H2, HS⟩
    rw [pay_fill m c t d0 d1]
    isplitl [HS Hg]
    · isplitl [HS]; · iexact HS
      iexact Hg
    isplitl [Ho]; · iexact Ho
    isplitl [H0]; · iexists _; iexact H0
    isplitl [H1]; · iexists _; iexact H1
    iexists _; iexact H2
  · have hc0 : ¬isFirst (grid0.coords t) := fun h => h0 ((first_iff t).mp h)
    have hz : t.val ≠ 0 := fun h => h0 (by rw [h])
    rw [PhiS_castSucc m c t, PhiS_pos m c _ _ hz, acc_next m c t h0]
    by_cases h1 : t.val % 25 = 24
    · -- a last step
      have hc1 : isLast (grid0.coords t) := (last_iff t).mpr h1
      rw [leavesO_last m c t hc1, acc_next m c t h0]
      iintro ⟨⟨HS, Hg⟩, Ho, ⟨%d0, H0⟩, ⟨%d1, H1⟩, ⟨%d2, H2⟩⟩
      iapply (lastStep (F := F) c (grid0.coords t) (msA t) (hsA t) (msB t) (hsB t) (msO t) (hsO t) scM (Memref.isWhole_whole _) hc0 hc1
        (win0_0.fill (grid0.coords t) d0 (iblk m c 0 t)) (win0_1.fill (grid0.coords t) d1 (iblk m c 1 t)) _ Set.univ _)
      isplitl [H0]; · iexact H0
      isplitl [H1]; · iexact H1
      isplitl [H2]; · iexists _; iexact H2
      isplitl [HS]; · iexact HS
      iintro ⟨H0, H1, H2, HS⟩
      rw [pay_fill m c t d0 d1]
      isplitl [HS Hg]
      · isplitl [HS]; · iexact HS
        iexact Hg
      isplitl [Ho]; · iexact Ho
      isplitl [H0]; · iexists _; iexact H0
      isplitl [H1]; · iexists _; iexact H1
      iexact H2
    · -- a step in between
      have hc1 : ¬isLast (grid0.coords t) := fun h => h1 ((last_iff t).mp h)
      rw [Dat.leaves_idle (dats m 0 c) 2 t (idleOut t hc1) (noFlushOut t hc1)]
      iintro ⟨⟨HS, Hg⟩, Ho, ⟨%d0, H0⟩, ⟨%d1, H1⟩, ⟨%d2, H2⟩⟩
      iapply (middleStep (F := F) c (grid0.coords t) (msA t) (hsA t) (msB t) (hsB t) (msO t) (hsO t) scM (Memref.isWhole_whole _) hc0 hc1
        (win0_0.fill (grid0.coords t) d0 (iblk m c 0 t)) (win0_1.fill (grid0.coords t) d1 (iblk m c 1 t)) ((dats m 0 c).before 2 t d2) _ Set.univ _)
      isplitl [H0]; · iexact H0
      isplitl [H1]; · iexact H1
      isplitl [H2]; · iexact H2
      isplitl [HS]; · iexact HS
      iintro ⟨H0, H1, H2, HS⟩
      rw [pay_fill m c t d0 d1]
      isplitl [HS Hg]
      · isplitl [HS]; · iexact HS
        iexact Hg
      isplitl [Ho]; · iexact Ho
      isplitl [H0]; · iexists _; iexact H0
      isplitl [H1]; · iexists _; iexact H1
      iexists _; iexact H2

/-- The library's body obligation, at every point. -/
theorem body_obligation (c : Dev nD) : BodyObligationLoose (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 50 := N_0; omega), PhiA_eq]
  iintro ⟨HS, Hg⟩
  isplitl [HS]
  · iexists _; iexact HS
  iexact Hg

/-! ## The run -/

set_option backward.isDefEq.respectTransparency.types false in
/-- For any float values, from any memory with zero counters: every weakly fair execution of the program
    terminates without a fault, the argument arrays unchanged and the result array at the write-backs the
    library computes from the proof data. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hin := hin m) (hout := hout m)

/-- The frame: the program runs to the end and its two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Acc

end
-- ==== Proof.LibBlockSum.lean ====
import Mathlib.Algebra.BigOperators.Fin
import Mathlib.Algebra.BigOperators.Intervals

/-!
# Summing a long sequence block by block

A sum over `T * B` consecutive indices can be taken as `T` partial sums of `B`
consecutive terms each, added up one after the other.  In an additive commutative
monoid the result is the same as the single sum over all `T * B` indices:

* `Cert.BlockSum.sum_blocks`: the general statement, for any number `T` of blocks of any
  length `B`;
* `Cert.BlockSum.sum_20x5000`: twenty blocks of five thousand terms, started from zero,
  with the block count written `19 + 1` and the position written `5000 * s + r`, equal
  to the sum over all one hundred thousand indices.

Only commutativity and associativity of the addition are used.
-/

namespace Cert.BlockSum

/-- `T` partial sums of `B` consecutive terms add up to the sum over all `T * B` terms. -/
theorem sum_blocks {β : Type*} [AddCommMonoid β] (T B : ℕ) (f : ℕ → β) :
    ∑ s ∈ Finset.range T, ∑ r : Fin B, f (s * B + r.val) = ∑ n : Fin (T * B), f n.val := by
  rw [Fin.sum_univ_eq_sum_range (fun n => f n) (T * B)]
  induction T with
  | zero => simp
  | succ T ih =>
    -- the last block is the tail of the range of length `T * B + B`
    rw [Finset.sum_range_succ, ih, Nat.succ_mul, Finset.sum_range_add,
      Fin.sum_univ_eq_sum_range (fun r => f (T * B + r)) B]

/-- Twenty blocks of five thousand terms, accumulated from zero, give the sum of all
one hundred thousand terms. -/
theorem sum_20x5000 {β : Type*} [AddCommMonoid β] (g : Fin 100000 → β) (f : ℕ → β)
    (hf : ∀ n : Fin 100000, f n.val = g n) :
    (0 : β) + ∑ s ∈ Finset.range (19 + 1), ∑ r : Fin 5000, f (5000 * s + r.val)
      = ∑ n : Fin 100000, g n := by
  rw [zero_add]
  calc ∑ s ∈ Finset.range (19 + 1), ∑ r : Fin 5000, f (5000 * s + r.val)
      = ∑ s ∈ Finset.range 20, ∑ r : Fin 5000, f (s * 5000 + r.val) := by
        refine Finset.sum_congr rfl fun s _ => Finset.sum_congr rfl fun r _ => ?_
        rw [Nat.mul_comm]
    _ = ∑ n : Fin (20 * 5000), f n.val := sum_blocks 20 5000 f
    _ = ∑ n : Fin 100000, g n := Finset.sum_congr rfl fun n _ => hf n

end Cert.BlockSum
-- ==== Proof.OneHotProduct.lean ====
/-
  The one-hot embedding product as a function of its two argument arrays, over the extended reals:

      out[n, d] = Σ_{k < 50000} table[d, k] · types[k, n]        (n < 2048, d < 128).

  The kernel adds the same terms up in another order and grouping: 25 steps of 2048 terms each, the
  last step's 1200 terms past the arrays' end replaced by zero, every term written types · table.
  `sum_steps` says the 25 partial sums, added up, are the sum above: addition and multiplication of
  extended reals are commutative and associative, a zero term adds nothing, and nothing else is used
  (no entry needs to be finite).
-/
import Idealize.ShloMosaic.PureOps.Ideal
import Idealize.ShloMosaic.Lib.ValueIdx
import proofs.«158598_j66949950210384_2_alg».proof.Proof.LibBlockSum

noncomputable section

namespace Cert.OneHot

open Idealize.ShloMosaic Idealize.ShloMosaic.ValueIdx

/-- The product: entry `(n, d)` is the sum over the 50000 classes of the table's entry times the one-hot
    array's. -/
def product (types : (⟨2, ![50000, 2048]⟩ : Shape).Idx → EReal) (table : (⟨2, ![128, 50000]⟩ : Shape).Idx → EReal) :
    (⟨2, ![2048, 128]⟩ : Shape).Idx → EReal :=
  fun j => ∑ k : Fin 50000, table (ix2 (j 1) k) * types (ix2 k (j 0))

/-- The term of class `q` as the kernel forms it, for any natural number `q`: zero from 50000 on. -/
def term (types : (⟨2, ![50000, 2048]⟩ : Shape).Idx → EReal) (table : (⟨2, ![128, 50000]⟩ : Shape).Idx → EReal)
    (n : Fin 2048) (d : Fin 128) (q : ℕ) : EReal :=
  if h : q < 50000 then types (ix2 ⟨q, h⟩ n) * table (ix2 d ⟨q, h⟩) else 0

/-- Twenty-five steps of 2048 terms are the 50000 terms of the product and 1200 zeros. -/
theorem sum_steps (types : (⟨2, ![50000, 2048]⟩ : Shape).Idx → EReal) (table : (⟨2, ![128, 50000]⟩ : Shape).Idx → EReal)
    (n : Fin 2048) (d : Fin 128) :
    ∑ s ∈ Finset.range 25, ∑ r : Fin 2048, term types table n d (s * 2048 + r.val) = product types table (ix2 n d) := by
  unfold product
  rw [Cert.BlockSum.sum_blocks 25 2048 (term types table n d),
    Fin.sum_univ_eq_sum_range (fun q => term types table n d q) (25 * 2048),
    show 25 * 2048 = 50000 + 1200 from rfl, Finset.sum_range_add]
  have htail : ∑ x ∈ Finset.range 1200, term types table n d (50000 + x) = 0 :=
    Finset.sum_eq_zero fun x _ => by unfold term; rw [dif_neg (by omega)]
  rw [htail, add_zero, ← Fin.sum_univ_eq_sum_range (fun q => term types table n d q) 50000]
  refine Finset.sum_congr rfl fun k _ => ?_
  unfold term; rw [dif_pos k.isLt]; exact mul_comm _ _

end Cert.OneHot

end
-- ==== Proof.KernelIdealSum.lean ====
/-
  What the kernel's result array holds at the ideal values: the one-hot product.

  At the extended reals a change of float format is the identity and the matrix unit's product into a zero
  accumulator is the plain sum over the contracted coordinate. So one step adds to the scratch, at entry
  `(p, d)` of the block, the 2048 terms `types[k, n] · table[d, k]` of its step (`k` = step · 2048 + position,
  `n` = row block · 1024 + `p`), a term past the arrays' end being `0 · 0 = 0` (`step_apply`). By induction
  along a row block the running sum after step `s` is the sum of the first `s + 1` steps' terms
  (`acc_apply`); after the 25th it is the whole product (`OneHot.sum_steps`), which is what the last step
  hands to the write-back. The two write-backs (points 24 and 49) cover the result's rows 0..1023 and
  1024..2047, so the result array ends at the product (`final`).
-/
import proofs.«158598_j66949950210384_2_alg».proof.Proof.KernelIdealAcc
import proofs.«158598_j66949950210384_2_alg».proof.Proof.OneHotProduct
import Idealize.ShloMosaic.Lib.Pipeline.Value
import Idealize.ShloMosaic.Lib.ValueIdx
import Idealize.ShloMosaic.PureOps.Ideal.Laws

set_option maxRecDepth 16384

noncomputable section

namespace Cert.KernelIdeal.Sum

open Cert.KernelIdeal Cert.KernelIdeal.Gen Cert.KernelIdeal.Point Cert.KernelIdeal.Mask Cert.KernelIdeal.Acc Cert.OneHot
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

local notation "D" => dot_S2048x1024_S128x2048_S1024x128_0_1_1_0_n_n

/-- The bf16 zero word is the extended real 0. -/
theorem zero_bf16 : Ideal.ofBits .bf16 0x0000#16 = 0 := by simp [Ideal.ofBits, Ideal.ieee]

/-- The block indices of the three windows at a point: the table's block moves with the step, the one-hot
    array's with the step and the row block, the result's with the row block. -/
theorem index_facts : ∀ t : Fin cfg0.N, win0_0.index t (0 : Fin 2) = 0 ∧ win0_0.index t (1 : Fin 2) = t.val % 25
    ∧ win0_1.index t (0 : Fin 2) = t.val % 25 ∧ win0_1.index t (1 : Fin 2) = t.val / 25
    ∧ win0_2.index t (0 : Fin 2) = t.val / 25 ∧ win0_2.index t (1 : Fin 2) = 0 :=
  (by decide +kernel : ∀ t : Fin grid0.N, _)

/-- The row of the result that entry `p` of point `n`'s block is. -/
def rowOf (n : ℕ) (hn : n < cfg0.N) (p : Fin 1024) : Fin 2048 :=
  ⟨n / 25 * 1024 + p.val, by have : n < 50 := lt_of_lt_of_eq hn N_0; have := p.isLt; omega⟩

/-- An entry of the one-hot array's block whose row is in range is the array's entry. -/
theorem blkB_apply (c : Dev nD) (t : Fin cfg0.N) (kk : Fin 2048) (p : Fin 1024) (h : t.val % 25 * 2048 + kk.val < 50000) :
    blkB m c t (ix2 kk p) = V m c main_arg0 (ix2 ⟨t.val % 25 * 2048 + kk.val, h⟩ (rowOf t.val t.isLt p)) := by
  have hm : win0_1.moved (grid0.coords t) (ix2 kk p) = true := (movedB_iff _ _).mpr (by rw [coords_step]; exact h)
  obtain ⟨-, -, e2, e3, -, -⟩ := index_facts t
  unfold blkB Window.fill; rw [dif_pos hm]
  unfold iblk
  show V m c main_arg0 (((cfg0.win 1).blk t).view.emb _) = _
  congr 1; funext a; apply Fin.ext
  match a with
  | ⟨0, _⟩ => show win0_1.index t (0 : Fin 2) * 2048 + 1 * kk.val = t.val % 25 * 2048 + kk.val; rw [e2]; omega
  | ⟨1, _⟩ => show win0_1.index t (1 : Fin 2) * 1024 + 1 * p.val = t.val / 25 * 1024 + p.val; rw [e3]; omega

/-- An entry of the table's block whose column is in range is the table's entry. -/
theorem blkA_apply (c : Dev nD) (t : Fin cfg0.N) (d : Fin 128) (kk : Fin 2048) (h : t.val % 25 * 2048 + kk.val < 50000) :
    blkA m c t (ix2 d kk) = V m c main_arg1 (ix2 d ⟨t.val % 25 * 2048 + kk.val, h⟩) := by
  have hm : win0_0.moved (grid0.coords t) (ix2 d kk) = true := (movedA_iff _ _).mpr (by rw [coords_step]; exact h)
  obtain ⟨e0, e1, -, -, -, -⟩ := index_facts t
  unfold blkA Window.fill; rw [dif_pos hm]
  unfold iblk
  show V m c main_arg1 (((cfg0.win 0).blk t).view.emb _) = _
  congr 1; funext a; apply Fin.ext
  match a with
  | ⟨0, _⟩ => show win0_0.index t (0 : Fin 2) * 128 + 1 * d.val = d.val; rw [e0]; omega
  | ⟨1, _⟩ => show win0_0.index t (1 : Fin 2) * 2048 + 1 * kk.val = t.val % 25 * 2048 + kk.val; rw [e1]; omega

/-- The matrix unit's operand indices: the one-hot block is read at (contracted, row), the table's block at
    (column, contracted). -/
theorem lhs_at (p : Fin 1024) (d : Fin 128) (kk : Fin 2048) :
    (D).lhsIdx (ix2 p d) ((contrEquiv1 D 2048 rfl rfl).symm kk) = ix2 kk p := by
  have hk := contrEquiv1_symm_val D 2048 rfl rfl kk
  funext a; apply Fin.ext
  match a with
  | ⟨0, _⟩ => exact ((D).lhsIdx_val_of_single rfl _ _).trans hk
  | ⟨1, _⟩ =>
    show ((D).lhsIdx (ix2 p d) ((contrEquiv1 D 2048 rfl rfl).symm kk) 1).val = p.val
    unfold DotDims.lhsIdx
    rw [dif_neg (show ¬(1 : Fin S2048x1024.rank) ∈ (D).lhsBatch by decide), dif_pos (show (1 : Fin S2048x1024.rank) ∈ (D).lhsNonContracting by decide)]
    rfl
theorem rhs_at (p : Fin 1024) (d : Fin 128) (kk : Fin 2048) :
    (D).rhsIdx (ix2 p d) ((contrEquiv1 D 2048 rfl rfl).symm kk) = ix2 d kk := by
  have hk := contrEquiv1_symm_val D 2048 rfl rfl kk
  funext a; apply Fin.ext
  match a with
  | ⟨0, _⟩ =>
    show ((D).rhsIdx (ix2 p d) ((contrEquiv1 D 2048 rfl rfl).symm kk) 0).val = d.val
    unfold DotDims.rhsIdx
    rw [dif_neg (show ¬(0 : Fin S128x2048.rank) ∈ (D).rhsBatch by decide), dif_pos (show (0 : Fin S128x2048.rank) ∈ (D).rhsNonContracting by decide)]
    rfl
  | ⟨1, _⟩ => exact ((D).rhsIdx_val_of_single rfl _ _).trans hk

/-- ONE STEP at an entry: what the scratch held plus the step's 2048 terms. -/
theorem step_apply (c : Dev nD) (t : Fin cfg0.N) (xs : Vec Ideal S1024x128 .f32) (p : Fin 1024) (d : Fin 128) :
    k0_pay2 (F := Ideal) (grid0.coords t) (blkA m c t) (blkB m c t) xs (ix2 p d)
      = xs (ix2 p d) + ∑ kk : Fin 2048, term (V m c main_arg0) (V m c main_arg1) (rowOf t.val t.isLt p) d (t.val % 25 * 2048 + kk.val) := by
  rw [pay_eq, shapeCast_self]
  show xs (ix2 p d) + FloatOps.matmul D none (keepB (grid0.coords t) (blkB m c t)) (keepA (grid0.coords t) (blkA m c t)) (constant S1024x128 .f32 0x00000000#32) (ix2 p d) = _
  rw [Ideal.matmul_constant_zero_apply, ← Equiv.sum_comp (contrEquiv1 D 2048 rfl rfl).symm]
  congr 1
  refine Finset.sum_congr rfl fun kk _ => ?_
  rw [lhs_at, rhs_at, keepB_apply, keepA_apply]
  have hs := coords_step t
  by_cases h : t.val % 25 * 2048 + kk.val < 50000
  · rw [if_pos (show ((grid0.coords t) 1).val * 2048 + kk.val < 50000 by rw [hs]; exact h),
      if_pos (show ((grid0.coords t) 1).val * 2048 + kk.val < 50000 by rw [hs]; exact h)]
    show blkB m c t (ix2 kk p) * blkA m c t (ix2 d kk) = _
    rw [blkB_apply m c t kk p h, blkA_apply m c t d kk h]
    unfold term; rw [dif_pos h]
  · rw [if_neg (show ¬((grid0.coords t) 1).val * 2048 + kk.val < 50000 by rw [hs]; exact h),
      if_neg (show ¬((grid0.coords t) 1).val * 2048 + kk.val < 50000 by rw [hs]; exact h)]
    show Ideal.ofBits .bf16 0x0000#16 * Ideal.ofBits .bf16 0x0000#16 = _
    rw [zero_bf16, zero_mul]
    unfold term; rw [dif_neg h]

/-- The cleared block is zero everywhere. -/
theorem cleared_apply (j : S1024x128.Idx) : k0_pay1 (F := Ideal) j = 0 := by
  unfold k0_pay1; rw [shapeCast_self]
  show Ideal.ofBits .f32 0x00000000#32 = 0
  exact Ideal.ofBits_zero_f32

/-- THE RUNNING SUM at an entry: the terms of the steps so far of the point's row block. -/
theorem acc_apply (c : Dev nD) (p : Fin 1024) (d : Fin 128) : ∀ (n : ℕ) (hn : n < cfg0.N),
    acc m c n hn (ix2 p d) = ∑ s ∈ Finset.range (n % 25 + 1), ∑ r : Fin 2048,
      term (V m c main_arg0) (V m c main_arg1) (rowOf n hn p) d (s * 2048 + r.val) := by
  intro n
  induction n with
  | zero =>
    intro hn
    rw [acc_first m c ⟨0, hn⟩ rfl, step_apply, cleared_apply, zero_add]
    show _ = ∑ s ∈ Finset.range 1, _
    rw [Finset.sum_range_one]
    rfl
  | succ n ih =>
    intro hn
    have hN : n + 1 < 50 := lt_of_lt_of_eq hn N_0
    by_cases h : (n + 1) % 25 = 0
    · rw [acc_first m c ⟨n + 1, hn⟩ h, step_apply, cleared_apply, zero_add]
      show ∑ kk : Fin 2048, term _ _ _ d ((n + 1) % 25 * 2048 + kk.val) = ∑ s ∈ Finset.range ((n + 1) % 25 + 1), _
      rw [h, Finset.sum_range_one]
    · rw [acc_next m c ⟨n + 1, hn⟩ h, step_apply]
      show acc m c n _ (ix2 p d) + ∑ kk : Fin 2048, term _ _ (rowOf (n + 1) hn p) d ((n + 1) % 25 * 2048 + kk.val) = _
      have e1 : (n + 1) % 25 = n % 25 + 1 := by omega
      have e2 : rowOf n (Nat.lt_of_succ_lt hn) p = rowOf (n + 1) hn p := Fin.ext (by unfold rowOf; show n / 25 * 1024 + p.val = (n + 1) / 25 * 1024 + p.val; omega)
      rw [ih (Nat.lt_of_succ_lt hn), e2, e1, Finset.sum_range_succ (n := n % 25 + 1)]

/-- After a last step the running sum is the product's block. -/
theorem acc_last (c : Dev nD) (t : Fin cfg0.N) (h : t.val % 25 = 24) (p : Fin 1024) (d : Fin 128) :
    acc m c t.val t.isLt (ix2 p d) = product (V m c main_arg0) (V m c main_arg1) (ix2 (rowOf t.val t.isLt p) d) := by
  rw [acc_apply, h]; exact sum_steps _ _ _ _

/-- A block that is, entry by entry, the rows `row block · 1024 ..` of a whole-array function is that function read
    through the result window's block at the point. -/
theorem cut_eq_read (t : Fin cfg0.N) (X : S1024x128.Idx → EReal) (G : S2048x128.Idx → EReal)
    (h : ∀ (p : Fin 1024) (d : Fin 128), X (ix2 p d) = G (ix2 (rowOf t.val t.isLt p) d)) :
    (cfg0.win 2).cut (grid0.coords t) X = ((cfg0.win 2).blk t).view.read (Elt Ideal) G := by
  obtain ⟨-, -, -, -, e4, e5⟩ := index_facts t
  funext y
  have hy0 : (y 0).val < 1024 := (y 0).isLt
  have hy1 : (y 1).val < 128 := (y 1).isLt
  have e : win0_2.xinj (grid0.coords t) y = ix2 (⟨(y 0).val, hy0⟩ : Fin 1024) (⟨(y 1).val, hy1⟩ : Fin 128) :=
    funext fun a => by match a with | ⟨0, _⟩ => rfl | ⟨1, _⟩ => rfl
  show X (win0_2.xinj (grid0.coords t) y) = G (((cfg0.win 2).blk t).view.emb y)
  rw [e, h]
  congr 1; funext a; apply Fin.ext
  match a with
  | ⟨0, _⟩ => show t.val / 25 * 1024 + (y 0).val = win0_2.index t (0 : Fin 2) * 1024 + 1 * (y 0).val; rw [e4]; omega
  | ⟨1, _⟩ => show (y 1).val = win0_2.index t (1 : Fin 2) * 128 + 1 * (y 1).val; rw [e5]; omega

/-- WHAT A LAST STEP WRITES BACK is its block of the product. -/
theorem flushed_eq (c : Dev nD) (t : Fin cfg0.N) (hf : (cfg0.win 2).flush t = true) :
    (dats m 0 c).flushed 2 t = ((cfg0.win 2).blk t).view.read (Elt Ideal) (product (V m c main_arg0) (V m c main_arg1)) := by
  have h24 : t.val % 25 = 24 := (flush0_2 t).mp hf
  show (cfg0.win 2).cut (grid0.coords t) ((dats m 0 c).after 2 t) = _
  rw [afterO]
  exact cut_eq_read t _ _ (fun p d => acc_last m c t h24 p d)

/-- An index of the result is in point `t`'s block iff each coordinate is in the block's range. -/
theorem mem_blk (t : Fin cfg0.N) (i : S2048x128.Idx) :
    i ∈ ((cfg0.win 2).blk t).view.set ↔ ∀ a : Fin 2, win0_2.index t a * S1024x128.size a ≤ (i a).val ∧ (i a).val < win0_2.index t a * S1024x128.size a + S1024x128.size a := by
  show i ∈ ((View.whole main_v0).slice (win0_2.rect t)).set ↔ _
  rw [View.set_slice_whole, Rect.mem_set_unit]
  exact Iff.rfl

/-- Every row of the result is in the block of its row block's last step. -/
theorem covered (i : S2048x128.Idx) : ∃ t : Fin cfg0.N, (cfg0.win 2).flush t = true ∧ i ∈ ((cfg0.win 2).blk t).view.set := by
  have hi0 : (i 0).val < 2048 := (i 0).isLt
  have hi1 : (i 1).val < 128 := (i 1).isLt
  have hN : cfg0.N = 50 := N_0
  let t : Fin cfg0.N := ⟨(i 0).val / 1024 * 25 + 24, by omega⟩
  have ht : t.val = (i 0).val / 1024 * 25 + 24 := rfl
  obtain ⟨-, -, -, -, e4, e5⟩ := index_facts t
  refine ⟨t, (flush0_2 t).mpr (by omega), ?_⟩
  rw [mem_blk]
  intro a
  match a with
  | ⟨0, _⟩ => show win0_2.index t (0 : Fin 2) * 1024 ≤ (i 0).val ∧ (i 0).val < win0_2.index t (0 : Fin 2) * 1024 + 1024; rw [e4]; omega
  | ⟨1, _⟩ => show win0_2.index t (1 : Fin 2) * 128 ≤ (i 1).val ∧ (i 1).val < win0_2.index t (1 : Fin 2) * 128 + 128; rw [e5]; omega

/-- THE RESULT ARRAY after the run is the product of the two argument arrays. -/
theorem final (c : Dev nD) : (dats m 0 c).arrAt 2 cfg0.N = product (V m c main_arg0) (V m c main_arg1) :=
  (dats m 0 c).arrAt_eq_of_cover 2 _ (fun t hf => flushed_eq m c t hf) covered

/-- The run, read: the result array at the product, the argument arrays unchanged. -/
theorem run : θ_run defs (onTc (τ := τ) (main (F := Ideal))) ⟨m, fun _ => 0, ρ⟩ fun r => ∀ c : Dev nD,
      r.2.mem ((c.tc : Thread nD τ).loc main_v0) = product (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).1 2).trans (final m c),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c)))⟩)
    (run_main m ρ)

end Cert.KernelIdeal.Sum

end
-- ==== Proof.ReferenceProduct.lean ====
/-
  The reference computes the one-hot product: jnp.matmul(table, types) read at an entry is the sum over the
  50000 classes of the table's entry times the one-hot array's, and the transpose swaps the two coordinates.
-/
import proofs.«158598_j66949950210384_2_alg».proof.Proof.Gen.ReferenceIdeal.Read
import proofs.«158598_j66949950210384_2_alg».proof.Proof.OneHotProduct

noncomputable section

namespace Cert.ReferenceIdeal.Product

open Cert.ReferenceIdeal Cert.ReferenceIdeal.Read Cert.OneHot
open Idealize.ShloMosaic Idealize.ShloMosaic.ValueIdx

/-- The reference's result, as a function of the two argument arrays, is the product. -/
theorem ref_eq (x0 : (⟨S50000x2048, .f32⟩ : BufTy).Contents (Elt Ideal)) (x1 : (⟨S128x50000, .f32⟩ : BufTy).Contents (Elt Ideal)) :
    val_main_v1 (F := Ideal) x0 x1 = product x0 x1 := by
  funext j
  rw [val_main_v1_apply, val_main_v0_apply]
  unfold product
  refine Finset.sum_congr rfl fun k _ => ?_
  have el : lidx_main_v0 (idx_main_v1 j) k = ix2 (j 1) k := funext fun a => by match a with | ⟨0, _⟩ => rfl | ⟨1, _⟩ => rfl
  have er : ridx_main_v0 (idx_main_v1 j) k = ix2 k (j 0) := funext fun a => by match a with | ⟨0, _⟩ => rfl | ⟨1, _⟩ => rfl
  rw [el, er]
  rfl

end Cert.ReferenceIdeal.Product

end
-- ==== Proof.lean ====
/-
  The certificate of the one-hot embedding product: a Pallas kernel that multiplies the 128 × 50000 lookup
  table by the 50000 × 2048 one-hot array in 2 × 25 blocks — 2048 contracted coordinates a step, accumulated in
  a scratch block that is cleared at each row block's first step and copied out at its last, the last step's
  overhang past coordinate 50000 masked to zero on both operands — against jnp.matmul(table, types).T.

  The frames: each of the two printed kernels (at the word level and at the extended reals) runs to the end
  without a fault and leaves its arguments as they were, by the pipeline rule over the body's three cases
  (Proof/KernelPoint, KernelAcc and their idealized twins); the reference's is its run with the result
  dropped. The idealization rewrote nothing, so there is nothing to preserve. The two idealized programs agree:
  the kernel's result array ends at the product Σ_k table[d, k] · types[k, n] of its arguments
  (Proof/KernelIdealSum: 25 partial sums of 2048 terms, regrouped into the one sum; a masked term is 0 · 0 and
  adds nothing), and the reference's result is that sum by definition of the matrix product and the transpose
  (Proof/ReferenceProduct). Only commutativity and associativity of + and · on the extended reals are used, so
  the finiteness of the inputs is never needed.
-/
import proofs.«158598_j66949950210384_2_alg».proof.Defs
import proofs.«158598_j66949950210384_2_alg».proof.Proof.Gen.Kernel
import proofs.«158598_j66949950210384_2_alg».proof.Proof.Gen.KernelIdeal
import proofs.«158598_j66949950210384_2_alg».proof.Proof.Gen.ReferenceIdeal
import proofs.«158598_j66949950210384_2_alg».proof.Proof.Gen.ReferenceIdeal.Run
import proofs.«158598_j66949950210384_2_alg».proof.Proof.Gen.ReferenceIdeal.Read
import proofs.«158598_j66949950210384_2_alg».proof.Proof.Gen.Pre_finite_inputs
import proofs.«158598_j66949950210384_2_alg».proof.Proof.KernelAcc
import proofs.«158598_j66949950210384_2_alg».proof.Proof.KernelIdealSum
import proofs.«158598_j66949950210384_2_alg».proof.Proof.ReferenceProduct
import Idealize.ShloMosaic.Adequacy
import Idealize.ShloMosaic.Init

noncomputable section

namespace Cert.Proof

open Idealize.ShloMosaic Idealize.SL.Sem

/-- The word-level kernel runs to the end and keeps its arguments. -/
theorem frame_kernel : Cert.frame_Kernel := fun m ρ _ => Cert.Kernel.Acc.frame m ρ

/-- So does the kernel read at the extended reals. -/
theorem frame_kernelIdeal : Cert.frame_KernelIdeal := fun m ρ _ => Cert.KernelIdeal.Acc.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- At the extended reals both programs end with the product of their (equal) arguments. -/
theorem algebraic : Cert.algebraic_KernelIdeal_ReferenceIdeal := by
  intro m ρ m' ρ' _ hagree
  refine ⟨_, Cert.KernelIdeal.Sum.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.ReferenceIdeal.Product.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
